-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S128x64 .f32) (main_arg3 : FVec F S128 .f32) (main_arg4 : FVec F S128x64 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S64x128 : Shape := ⟨2, ![64, 128]⟩
abbrev S800000x64 : Shape := ⟨2, ![800000, 64]⟩
abbrev S1x128 : Shape := ⟨2, ![1, 128]⟩
abbrev S50000x128 : Shape := ⟨2, ![50000, 128]⟩
abbrev S2000x64 : Shape := ⟨2, ![2000, 64]⟩
abbrev S2000x1 : Shape := ⟨2, ![2000, 1]⟩
abbrev S2000x128 : Shape := ⟨2, ![2000, 128]⟩
abbrev S2000 : Shape := ⟨1, ![2000]⟩
abbrev S800000x128 : Shape := ⟨2, ![800000, 128]⟩

abbrev nBuf : Space → Nat
  | .hbm => 83
  | .vmem => 33
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S64x128, .f32⟩
  | .hbm, ⟨29, _⟩ => ⟨S64x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S50000x64, .bf16⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .bf16⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S1x128, .f32⟩
  | .hbm, ⟨50, _⟩ => ⟨S50000x128, .bf16⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .bf16⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S1x128, .f32⟩
  | .hbm, ⟨66, _⟩ => ⟨S50000x128, .bf16⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .bf16⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S1x128, .f32⟩
  | .hbm, ⟨82, _⟩ => ⟨S50000x128, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .bf16⟩
  | .local _ .vmem, ⟨16, _⟩ => ⟨S2000x128, .bf16⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x128, .bf16⟩
  | .local _ .vmem, ⟨21, _⟩ => ⟨S2000x128, .bf16⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .bf16⟩
  | .local _ .vmem, ⟨27, _⟩ => ⟨S2000x128, .bf16⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  transposes_S128x64_S64x128_1_0 : S128x64.Transposes [1, 0] S64x128
  transposes_S128x128_S128x128_1_0 : S128x128.Transposes [1, 0] S128x128
  bitsLt_bf16_f32 : FTy.bits .bf16 < FTy.bits .f32
  bcast_S_S50000x64 : S_.BroadcastsInDim S50000x64 (![] : Fin 0 → Fin S50000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .bf16 = 32 ∨ (Rect.block (s := S50000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v30) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v56) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S64x128 : Shape := ⟨2, ![64, 128]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 150
  | .vmem => 0
  | .smem => 0
  | _ => 0

abbrev hbmTy0_0 (i : Nat) : BufTy := match i % 128 with
  | 0 => ⟨S50000x64, .f32⟩
  | 1 => ⟨S2x800000, .i32⟩
  | 2 => ⟨S128x64, .f32⟩
  | 3 => ⟨S128, .f32⟩
  | 4 => ⟨S128x64, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x64, .f32⟩
  | 39 => ⟨S50000x64, .f32⟩
  | 40 => ⟨S64x128, .f32⟩
  | 41 => ⟨S50000x128, .f32⟩
  | 42 => ⟨S1x128, .f32⟩
  | 43 => ⟨S50000x128, .f32⟩
  | 44 => ⟨S50000x128, .f32⟩
  | 45 => ⟨S64x128, .f32⟩
  | 46 => ⟨S50000x128, .f32⟩
  | 47 => ⟨S50000x128, .f32⟩
  | 48 => ⟨S50000x128, .f32⟩
  | 49 => ⟨S_, .f32⟩
  | 50 => ⟨S50000, .f32⟩
  | 51 => ⟨S50000x1, .f32⟩
  | 52 => ⟨S50000x1, .f32⟩
  | 53 => ⟨S_, .f32⟩
  | 54 => ⟨S50000x1, .f32⟩
  | 55 => ⟨S50000x1, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S128x128, .f32⟩
  | 87 => ⟨S50000x128, .f32⟩
  | 88 => ⟨S1x128, .f32⟩
  | 89 => ⟨S50000x128, .f32⟩
  | 90 => ⟨S50000x128, .f32⟩
  | 91 => ⟨S128x128, .f32⟩
  | 92 => ⟨S50000x128, .f32⟩
  | 93 => ⟨S50000x128, .f32⟩
  | 94 => ⟨S50000x128, .f32⟩
  | 95 => ⟨S_, .f32⟩
  | 96 => ⟨S50000, .f32⟩
  | 97 => ⟨S50000x1, .f32⟩
  | 98 => ⟨S50000x1, .f32⟩
  | 99 => ⟨S_, .f32⟩
  | 100 => ⟨S50000x1, .f32⟩
  | 101 => ⟨S50000x1, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S_, .f32⟩
  | 121 => ⟨S800000, .f32⟩
  | 122 => ⟨S_, .f32⟩
  | 123 => ⟨S50000, .f32⟩
  | 124 => ⟨S800000x1, .i32⟩
  | 125 => ⟨S50000, .f32⟩
  | 126 => ⟨S_, .f32⟩
  | 127 => ⟨S50000, .f32⟩
  | _ => ⟨S50000x64, .f32⟩

abbrev hbmTy0_1 (i : Nat) : BufTy := match i % 128 with
  | 0 => ⟨S50000, .f32⟩
  | 1 => ⟨S50000x1, .f32⟩
  | 2 => ⟨S50000x128, .f32⟩
  | 3 => ⟨S50000x128, .f32⟩
  | 4 => ⟨S128x128, .f32⟩
  | 5 => ⟨S50000x128, .f32⟩
  | 6 => ⟨S1x128, .f32⟩
  | 7 => ⟨S50000x128, .f32⟩
  | 8 => ⟨S50000x128, .f32⟩
  | 9 => ⟨S128x128, .f32⟩
  | 10 => ⟨S50000x128, .f32⟩
  | 11 => ⟨S50000x128, .f32⟩
  | 12 => ⟨S50000x128, .f32⟩
  | 13 => ⟨S_, .f32⟩
  | 14 => ⟨S50000, .f32⟩
  | 15 => ⟨S50000x1, .f32⟩
  | 16 => ⟨S50000x1, .f32⟩
  | 17 => ⟨S_, .f32⟩
  | 18 => ⟨S50000x1, .f32⟩
  | 19 => ⟨S50000x1, .f32⟩
  | 20 => ⟨S50000x128, .f32⟩
  | 21 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_call0_v2 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_cst : Ref sig .tc := ⟨.hbm, 58, rfl⟩
abbrev main_call1_v0 : Ref sig .tc := ⟨.hbm, 59, rfl⟩
abbrev main_v36 : Ref sig .tc := ⟨.hbm, 60, rfl⟩
abbrev main_c_5 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call2_v0 : Ref sig .tc := ⟨.hbm, 94, rfl⟩
abbrev main_call2_cst : Ref sig .tc := ⟨.hbm, 95, rfl⟩
abbrev main_call2_v1 : Ref sig .tc := ⟨.hbm, 96, rfl⟩
abbrev main_call2_v2 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call3_cst : Ref sig .tc := ⟨.hbm, 104, rfl⟩
abbrev main_call3_v0 : Ref sig .tc := ⟨.hbm, 105, rfl⟩
abbrev main_v69 : Ref sig .tc := ⟨.hbm, 106, rfl⟩
abbrev main_c_12 : Ref sig .tc := ⟨.hbm, 107, rfl⟩
abbrev main_v70 : Ref sig .tc := ⟨.hbm, 108, rfl⟩
abbrev main_v71 : Ref sig .tc := ⟨.hbm, 109, rfl⟩
abbrev main_c_13 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_14 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_15 : Ref sig .tc := ⟨.hbm, 120, rfl⟩
abbrev main_v80 : Ref sig .tc := ⟨.hbm, 121, rfl⟩
abbrev main_cst_16 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_call4_v0 : Ref sig .tc := ⟨.hbm, 140, rfl⟩
abbrev main_call4_cst : Ref sig .tc := ⟨.hbm, 141, rfl⟩
abbrev main_call4_v1 : Ref sig .tc := ⟨.hbm, 142, rfl⟩
abbrev main_call4_v2 : Ref sig .tc := ⟨.hbm, 143, rfl⟩
abbrev main_v97 : Ref sig .tc := ⟨.hbm, 144, rfl⟩
abbrev main_cst_18 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One mean-aggregation layer on the extended reals, in the two arrangements the two programs use, and the law that
  joins them.

  For node features `h : [N, d]`, neighbour sums `agg : [N, d]`, weights `wl, wr : [d, 128]` and a bias of 128 entries,
  row `i` of the layer is the vector  y = mean(i) · wl + h(i) · wr + bias  divided by its Euclidean length clamped below
  by a small constant, optionally followed by a clamp of negative entries to zero.  Here mean(i) is row `i` of `agg`
  scaled by the reciprocal of the node's neighbour count clamped below by one.

  One program forms the reciprocal first and multiplies by it, and adds the bias after both products; the other divides
  by the clamped count and adds the bias between the products.  The clamped count is at least one, hence not zero, so
  dividing by it and multiplying by its reciprocal are the same operation on every extended real, and addition on the
  extended reals is commutative and associative: the two arrangements are one function.

  Each row of the result depends only on the same row of `agg`, of the reciprocal column and of `h`, so a block of
  consecutive rows of the result is the same function of the corresponding blocks.
-/
import Idealize.ShloMosaic.PureOps.Ideal
import Idealize.ShloMosaic.PureOps.Ideal.Laws
import Idealize.ShloMosaic.Lib.ValueIdx

noncomputable section

open scoped BigOperators

namespace Cert.SageSpec

open Idealize.ShloMosaic Idealize.ShloMosaic.ValueIdx

/-- A matrix of extended reals. -/
abbrev Mat (A B : ℕ) : Type := (⟨2, ![A, B]⟩ : Shape).Idx → EReal
/-- A vector of extended reals. -/
abbrev Vc (A : ℕ) : Type := (⟨1, ![A]⟩ : Shape).Idx → EReal

/-- The lower clamp of a row's length (the single-precision number nearest 1e-12). -/
def eps : EReal := Ideal.ofBits .f32 0x2B8CBCCC#32
/-- The single-precision word of zero, as both programs spell the clamp of negative entries. -/
def zeroW : EReal := Ideal.ofBits .f32 0x00000000#32
/-- The single-precision word of one. -/
def oneW : EReal := Ideal.ofBits .f32 0x3F800000#32

theorem oneW_eq : oneW = 1 := by
  unfold oneW
  simp [Ideal.ofBits, Ideal.ieee]
  exact_mod_cast (by norm_num : (8388608 : ℝ) * (2 ^ 23)⁻¹ = 1)

/-- Entry `j` of a row divided by the row's clamped Euclidean length. -/
def unitRow (y : Fin 128 → EReal) (j : Fin 128) : EReal :=
  Ideal.div (y j) (max (Ideal.sqrt (∑ q : Fin 128, y q * y q)) eps)

/-- The optional clamp of negative entries. -/
def clampNeg (relu : Bool) (x : EReal) : EReal := if relu then max x zeroW else x

/-- The row before normalisation, first arrangement: the mean is `agg` times a reciprocal column, the bias is added
    last. -/
def linK {N d : ℕ} (agg : Mat N d) (cinv : Mat N 1) (h : Mat N d) (wl wr : Mat d 128) (b : Mat 1 128)
    (i : Fin N) (j : Fin 128) : EReal :=
  ((∑ k : Fin d, (agg (ix2 i k) * cinv (ix2 i 0)) * wl (ix2 k j)) + ∑ k : Fin d, h (ix2 i k) * wr (ix2 k j)) + b (ix2 0 j)

/-- The row before normalisation, second arrangement: the mean is `agg` divided by the clamped count, the bias is
    added between the two products. -/
def linR {N d : ℕ} (agg : Mat N d) (den : Vc N) (h : Mat N d) (wl wr : Mat d 128) (b : Vc 128)
    (i : Fin N) (j : Fin 128) : EReal :=
  ((∑ k : Fin d, Ideal.div (agg (ix2 i k)) (den (ix1 i)) * wl (ix2 k j)) + b (ix1 j)) + ∑ k : Fin d, h (ix2 i k) * wr (ix2 k j)

/-- One entry of the layer, first arrangement. -/
def rowK {N d : ℕ} (relu : Bool) (agg : Mat N d) (cinv : Mat N 1) (h : Mat N d) (wl wr : Mat d 128) (b : Mat 1 128)
    (i : Fin N) (j : Fin 128) : EReal :=
  clampNeg relu (unitRow (linK agg cinv h wl wr b i) j)

/-- One entry of the layer, second arrangement. -/
def rowR {N d : ℕ} (relu : Bool) (agg : Mat N d) (den : Vc N) (h : Mat N d) (wl wr : Mat d 128) (b : Vc 128)
    (i : Fin N) (j : Fin 128) : EReal :=
  clampNeg relu (unitRow (linR agg den h wl wr b i) j)

/-- The layer as an array, first arrangement. -/
def layerK {N d : ℕ} (relu : Bool) (agg : Mat N d) (cinv : Mat N 1) (h : Mat N d) (wl wr : Mat d 128) (b : Mat 1 128) :
    Mat N 128 := fun idx => rowK relu agg cinv h wl wr b (idx 0) (idx 1)

/-- The layer as an array, second arrangement. -/
def layerR {N d : ℕ} (relu : Bool) (agg : Mat N d) (den : Vc N) (h : Mat N d) (wl wr : Mat d 128) (b : Vc 128) :
    Mat N 128 := fun idx => rowR relu agg den h wl wr b (idx 0) (idx 1)

theorem layerK_apply {N d : ℕ} (relu : Bool) (agg : Mat N d) (cinv : Mat N 1) (h : Mat N d) (wl wr : Mat d 128)
    (b : Mat 1 128) (i : Fin N) (j : Fin 128) :
    layerK relu agg cinv h wl wr b (ix2 i j) = rowK relu agg cinv h wl wr b i j := rfl

theorem layerR_apply {N d : ℕ} (relu : Bool) (agg : Mat N d) (den : Vc N) (h : Mat N d) (wl wr : Mat d 128)
    (b : Vc 128) (i : Fin N) (j : Fin 128) :
    layerR relu agg den h wl wr b (ix2 i j) = rowR relu agg den h wl wr b i j := rfl

/-- Multiplying by the reciprocal of a nonzero extended real is dividing by it. -/
theorem mul_recip (a y : EReal) (hy : y ≠ 0) : a * Ideal.div oneW y = Ideal.div a y := by
  unfold Ideal.div
  rw [if_neg hy, if_neg hy, oneW_eq, one_mul]

/-- THE LAW: the two arrangements are one function, when the reciprocal column holds the reciprocals of the clamped
    counts, the clamped counts are not zero, and the two spellings of the bias hold the same entries. -/
theorem layerK_eq_layerR {N d : ℕ} (relu : Bool) (agg : Mat N d) (cinv : Mat N 1) (den : Vc N) (h : Mat N d)
    (wl wr : Mat d 128) (b : Mat 1 128) (bv : Vc 128)
    (hc : ∀ i : Fin N, cinv (ix2 i 0) = Ideal.div oneW (den (ix1 i)))
    (hd : ∀ i : Fin N, den (ix1 i) ≠ 0)
    (hb : ∀ j : Fin 128, b (ix2 0 j) = bv (ix1 j)) :
    layerK relu agg cinv h wl wr b = layerR relu agg den h wl wr bv := by
  funext idx
  unfold layerK layerR rowK rowR
  have hl : linK agg cinv h wl wr b (idx 0) = linR agg den h wl wr bv (idx 0) := by
    funext j
    unfold linK linR
    rw [hb j, add_right_comm]
    refine congrArg (fun s => s + bv (ix1 j) + ∑ k : Fin d, h (ix2 (idx 0) k) * wr (ix2 k j)) ?_
    refine Finset.sum_congr rfl fun k _ => ?_
    rw [hc (idx 0), mul_recip _ _ (hd (idx 0))]
  rw [hl]

/-- Rows of the result depend on the same rows of the row-indexed operands: if three arrays are the rows `r p` of three
    others, the layer of the former at row `p` is the layer of the latter at row `r p`. -/
theorem layerK_rows {N N' d : ℕ} (relu : Bool) (r : Fin N' → Fin N)
    (agg : Mat N d) (cinv : Mat N 1) (h : Mat N d) (agg' : Mat N' d) (cinv' : Mat N' 1) (h' : Mat N' d)
    (wl wr : Mat d 128) (b : Mat 1 128)
    (ha : ∀ p k, agg' (ix2 p k) = agg (ix2 (r p) k))
    (hc : ∀ p, cinv' (ix2 p 0) = cinv (ix2 (r p) 0))
    (hh : ∀ p k, h' (ix2 p k) = h (ix2 (r p) k)) (p : Fin N') (j : Fin 128) :
    layerK relu agg' cinv' h' wl wr b (ix2 p j) = layerK relu agg cinv h wl wr b (ix2 (r p) j) := by
  rw [layerK_apply, layerK_apply]
  unfold rowK
  have hl : linK agg' cinv' h' wl wr b p = linK agg cinv h wl wr b (r p) := by
    funext q
    unfold linK
    simp only [ha, hc, hh]
  rw [hl]

end Cert.SageSpec

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LibRowReduce.lean ====
/-
  Reductions of a matrix of extended reals along its rows.  For `x` of shape [A, B], a reduction over axis 1 read at
  row `a` runs over the row's entries `x (a, b)`, `b < B`: a maximum started from minus infinity is the supremum of
  the row, a sum started from zero is the row's sum; the host's reductions start from a scalar initial value instead,
  and give the maximum of that value and the row's supremum, and that value plus the row's sum.  The order in which
  the entries are folded does not matter, since `max` and `+` on the extended reals commute and associate.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.LibRowReduce

open Idealize.ShloMosaic Idealize.ShloMosaic.ValueIdx

/-- The index of the matrix over row `a` of the reduced vector, with column `b` inserted on the reduced axis,
    is `(a, b)`. -/
theorem lift_ix1 {A B : Nat} (h : (⟨2, ![A, B]⟩ : Shape).Reduces [1] ⟨1, ![A]⟩) (a : Fin A) (b : Fin B) :
    h.lift (ix1 a) b = ix2 a b := by
  funext c
  match c with
  | ⟨0, _⟩ => rfl
  | ⟨1, _⟩ => rfl

/-- A fold of `max` from `c` over finitely many extended reals is the maximum of `c` and their supremum. -/
theorem fold_max_eq_max_sup {ι : Type*} (s : Finset ι) (f : ι → EReal) (c : EReal) :
    s.fold max c f = max c (s.sup f) := by
  classical
  induction s using Finset.induction_on with
  | empty => rw [Finset.fold_empty, Finset.sup_empty, max_bot_right]
  | insert i s hi ih => rw [Finset.fold_insert hi, ih, Finset.sup_insert]; exact max_left_comm _ _ _

/-- The single-precision word of minus infinity denotes the bottom of the extended reals. -/
theorem ofBits_neg_inf_f32 : Ideal.ofBits .f32 0xFF800000#32 = ⊥ := by
  simp [Ideal.ofBits, Ideal.ieee]

/-- A host's reduction fact into a vector is also a kernel's (the vector has an axis). -/
theorem reduces_of_reducesTo {A B : Nat} (h' : (⟨2, ![A, B]⟩ : Shape).ReducesTo [1] ⟨1, ![A]⟩) :
    (⟨2, ![A, B]⟩ : Shape).Reduces [1] ⟨1, ![A]⟩ := by
  obtain ⟨h1, h2⟩ := h'
  exact ⟨h1, Nat.one_pos, h2⟩

/-- (1) The kernel's row maximum: a `maximumf` reduction along axis 1 from minus infinity, read at row `a`, is the
    supremum of that row. -/
theorem multiReduction_maximumf_row {A B : Nat} (x : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (a : Fin A) :
    multiReduction .maximumf [1] ⟨1, ![A]⟩ x 0xFF800000#32 h hφ hacc (ix1 a)
      = Finset.univ.sup fun b : Fin B => x (ix2 a b) := by
  refine (Ideal.multiReduction_maximumf_single x _ h hφ hacc (ix1 a)).trans ?_
  refine (fold_max_eq_max_sup _ _ _).trans ?_
  rw [show FloatOps.ofBits (F := Ideal) .f32 0xFF800000#32 = (⊥ : EReal) from ofBits_neg_inf_f32, max_bot_left]
  exact congrArg (Finset.univ.sup) (funext fun b : Fin B => congrArg x (lift_ix1 h a b))

/-- (2) The kernel's row sum: an `add` reduction along axis 1, read at row `a`, is the sum of that row. -/
theorem multiReduction_add_row {A B : Nat} (x : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ x 0x00000000#32 h hφ hacc (ix1 a) = ∑ b : Fin B, x (ix2 a b) := by
  refine (Ideal.multiReduction_add_single x _ h hφ hacc (ix1 a)).trans ?_
  exact Finset.sum_congr rfl fun b _ => congrArg x (lift_ix1 h a b)

/-- (3) The host's row maximum: a one-operand reduction by `maximumf` along axis 1 from the scalar `v`, read at row
    `a`, is the maximum of `v` and the supremum of that row. -/
theorem hostReduce_maximumf_row {A B : Nat} (x : (⟨2, ![A, B]⟩ : Shape).Idx → EReal)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduce (FloatOps.maximumf (F := Ideal) (φ := .f32)) x v h' hu (ix1 a)
      = max (v ix0) (Finset.univ.sup fun b : Fin B => x (ix2 a b)) := by
  have h := reduces_of_reducesTo h'
  refine (Host.reduce_eq_fold_single (FloatOps.maximumf (F := Ideal) (φ := .f32)) x v h' h hu (ix1 a)).trans ?_
  refine (fold_max_eq_max_sup _ _ _).trans ?_
  rw [eq_ix0 (Shape.Idx.first hu)]
  exact congrArg (fun f => max (v ix0) (Finset.univ.sup f)) (funext fun b : Fin B => congrArg x (lift_ix1 h a b))

/-- (4) The host's row sum: a one-operand reduction by addition along axis 1 from the scalar `v`, read at row `a`,
    is `v` plus the sum of that row. -/
theorem hostReduceAdd_row {A B : Nat} (x : FVec Ideal ⟨2, ![A, B]⟩ .f32)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduceAdd (F := Ideal) (φ := .f32) x v h' hu (ix1 a) = v ix0 + ∑ b : Fin B, x (ix2 a b) := by
  have h := reduces_of_reducesTo h'
  refine (Ideal.hostReduceAdd_single h' h x (v (Shape.Idx.first hu)) (ix1 a)).trans ?_
  rw [eq_ix0 (Shape.Idx.first hu)]
  exact congrArg (fun r => v ix0 + r) (Finset.sum_congr rfl fun b _ => congrArg x (lift_ix1 h a b))

end Cert.LibRowReduce

end
-- ==== Proof.LayerBody.lean ====
/-
  The arithmetic shared by the three layers, as a function of the operands of the two products and of the bias row.

  For `l1, l2 : [A, d]`, `r1, r2 : [d, 128]` and a bias row `b : [1, 128]`, the row before normalisation is
  `y = l1 · r1 + l2 · r2 + b`, the bias row being copied along the rows.  The sum of the squares of row `p` of `y`,
  reshaped from a vector to a column, its square root, the maximum with a small constant, and the column copied along
  each row give the denominator: at `(p, q)` it is the Euclidean length of row `p` clamped below by the constant.  So
  the quotient at `(p, q)` is entry `q` of row `p` of `y` divided by the clamped length of that row.
-/
import Idealize.ShloMosaic.PureOps.Ideal
import Idealize.ShloMosaic.PureOps.Ideal.Laws
import Idealize.ShloMosaic.Lib.ValueIdx
import Idealize.ShloMosaic.Lib.Pipeline.Value
import proofs.«121773_j33517924778074_2_alg».proof.Proof.Spec
import proofs.«121773_j33517924778074_2_alg».proof.Proof.LibKeepdims
import proofs.«121773_j33517924778074_2_alg».proof.Proof.LibMatmul
import proofs.«121773_j33517924778074_2_alg».proof.Proof.LibRowReduce

noncomputable section

open scoped BigOperators

namespace Cert.KernelIdeal.Pay

open Cert.SageSpec Idealize.ShloMosaic Idealize.ShloMosaic.ValueIdx

/-- A `[1, b]` row broadcast to `[a, b]` reads, at `(p, c)`, the row's entry `c`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (c : Fin b) (u : Fin 1) :
    broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

/-- The square root of a vector, read at an index. -/
theorem sqrt_apply {s : Shape} {φ : FTy} (x : FVec Ideal s φ) (i : s.Idx) : sqrt x i = Ideal.sqrt (x i) := rfl

variable {A d : ℕ}

/-- The row before normalisation: the two products into the zero accumulator, added, plus the bias row copied along the
    rows. -/
def pre (hb : (⟨2, ![1, 128]⟩ : Shape).Broadcasts ⟨2, ![A, 128]⟩)
    (l1 l2 : FVec Ideal ⟨2, ![A, d]⟩ .bf16) (r1 r2 : FVec Ideal ⟨2, ![d, 128]⟩ .bf16)
    (b : FVec Ideal ⟨2, ![1, 128]⟩ .f32) : FVec Ideal ⟨2, ![A, 128]⟩ .f32 :=
  addf (addf (matmul (DotDims.plain A d 128) none l1 r1 (constant ⟨2, ![A, 128]⟩ .f32 0x00000000#32))
      (matmul (DotDims.plain A d 128) none l2 r2 (constant ⟨2, ![A, 128]⟩ .f32 0x00000000#32)))
    (broadcastTo ⟨2, ![A, 128]⟩ b hb)

/-- The row before normalisation at `(i, j)`. -/
theorem pre_apply (hb : (⟨2, ![1, 128]⟩ : Shape).Broadcasts ⟨2, ![A, 128]⟩)
    (l1 l2 : FVec Ideal ⟨2, ![A, d]⟩ .bf16) (r1 r2 : FVec Ideal ⟨2, ![d, 128]⟩ .bf16)
    (b : FVec Ideal ⟨2, ![1, 128]⟩ .f32) (i : Fin A) (j : Fin 128) :
    pre hb l1 l2 r1 r2 b (ix2 i j)
      = ((∑ k : Fin d, l1 (ix2 i k) * r1 (ix2 k j)) + ∑ k : Fin d, l2 (ix2 i k) * r2 (ix2 k j)) + b (ix2 0 j) := by
  unfold pre
  rw [addf_apply, addf_apply, Cert.MatOps.matmul_plain_zero_apply, Cert.MatOps.matmul_plain_zero_apply,
    broadcastTo_1b_ab_apply b hb i j 0]

/-- The normalised row: the row before normalisation divided by the column of clamped row lengths copied along each
    row. -/
def core (hb : (⟨2, ![1, 128]⟩ : Shape).Broadcasts ⟨2, ![A, 128]⟩)
    (hr : (⟨2, ![A, 128]⟩ : Shape).Reduces [1] ⟨1, ![A]⟩)
    (hs : (⟨1, ![A]⟩ : Shape).ShapeCasts ⟨2, ![A, 1]⟩)
    (hc : (⟨2, ![A, 1]⟩ : Shape).Broadcasts ⟨2, ![A, 128]⟩)
    (l1 l2 : FVec Ideal ⟨2, ![A, d]⟩ .bf16) (r1 r2 : FVec Ideal ⟨2, ![d, 128]⟩ .bf16)
    (b : FVec Ideal ⟨2, ![1, 128]⟩ .f32) : FVec Ideal ⟨2, ![A, 128]⟩ .f32 :=
  divf (pre hb l1 l2 r1 r2 b)
    (broadcastTo ⟨2, ![A, 128]⟩
      (maximumf
        (sqrt (shapeCast ⟨2, ![A, 1]⟩
          (multiReduction .add [1] ⟨1, ![A]⟩ (mulf (pre hb l1 l2 r1 r2 b) (pre hb l1 l2 r1 r2 b)) 0x00000000#32 hr
            (.inl rfl) rfl) hs))
        (broadcast ⟨2, ![A, 1]⟩ (Scalar.ofBits .f32 0x2B8CBCCC#32))) hc)

/-- The normalised row at `(p, q)`: entry `q` of row `p` before normalisation, divided by that row's clamped length. -/
theorem core_apply (hb : (⟨2, ![1, 128]⟩ : Shape).Broadcasts ⟨2, ![A, 128]⟩)
    (hr : (⟨2, ![A, 128]⟩ : Shape).Reduces [1] ⟨1, ![A]⟩)
    (hs : (⟨1, ![A]⟩ : Shape).ShapeCasts ⟨2, ![A, 1]⟩)
    (hc : (⟨2, ![A, 1]⟩ : Shape).Broadcasts ⟨2, ![A, 128]⟩)
    (l1 l2 : FVec Ideal ⟨2, ![A, d]⟩ .bf16) (r1 r2 : FVec Ideal ⟨2, ![d, 128]⟩ .bf16)
    (b : FVec Ideal ⟨2, ![1, 128]⟩ .f32) (p : Fin A) (q : Fin 128) :
    core hb hr hs hc l1 l2 r1 r2 b (ix2 p q)
      = unitRow (fun j => ((∑ k : Fin d, l1 (ix2 p k) * r1 (ix2 k j)) + ∑ k : Fin d, l2 (ix2 p k) * r2 (ix2 k j))
          + b (ix2 0 j)) q := by
  unfold core
  rw [divf_apply, Idealize.ShloMosaic.Keepdims.broadcastTo_a1_ab_apply _ hc p q 0, maximumf_apply, broadcast_apply,
    sqrt_apply, Idealize.ShloMosaic.Keepdims.shapeCast_a_a1_apply _ hs p 0,
    Cert.LibRowReduce.multiReduction_add_row _ hr _ _ p]
  unfold unitRow
  simp only [mulf_apply, pre_apply]
  rfl

end Cert.KernelIdeal.Pay

end
-- ==== Proof.KPay0.lean ====
/-
  The arithmetic of the first layer's body, as one function of the whole blocks it reads.

  The body scales the block of neighbour sums by the column of reciprocal counts copied along each row, multiplies the
  scaled block and the block of node features by the two weight matrices, adds the two products and the bias row copied
  along the rows, divides every row by its Euclidean length clamped below by a small constant, and clamps negative
  entries to zero.  The changes of number format and the reshapes to the same shape on the way are identities on the
  extended reals.  Entry `(p, q)` of the result is therefore the layer's entry for row `p` and column `q` of the block.
-/
import proofs.«121773_j33517924778074_2_alg».proof.Proof.Gen.KernelIdeal.Skeleton
import proofs.«121773_j33517924778074_2_alg».proof.Proof.Spec
import proofs.«121773_j33517924778074_2_alg».proof.Proof.LibKeepdims
import proofs.«121773_j33517924778074_2_alg».proof.Proof.LayerBody

noncomputable section

open scoped BigOperators

namespace Cert.KernelIdeal.Pay

open Cert.KernelIdeal Cert.KernelIdeal.Gen Cert.SageSpec Idealize.ShloMosaic Idealize.ShloMosaic.ValueIdx

/-- The body's arithmetic, with the part after the format changes of its operands named. -/
theorem k0_pay1_core (x0 : Vec Ideal S2000x64 .f32) (x1 : Vec Ideal S2000x1 .f32) (x2 : Vec Ideal S2000x64 .f32)
    (x3 x4 : Vec Ideal S64x128 .f32) (x5 : Vec Ideal S1x128 .f32) :
    k0_pay1 (F := Ideal) x0 x1 x2 x3 x4 x5
      = truncf .bf16 (maximumf
          (core broadcasts_S1x128_S2000x128 reduces_S2000x128_S2000 shapeCasts_S2000_S2000x1
            broadcasts_S2000x1_S2000x128
            (truncf .bf16 (mulf (shapeCast S2000x64 x0 shapeCasts_S2000x64_S2000x64)
              (broadcastTo S2000x64 (shapeCast S2000x1 x1 shapeCasts_S2000x1_S2000x1) broadcasts_S2000x1_S2000x64))
              bitsLt_bf16_f32)
            (truncf .bf16 x2 bitsLt_bf16_f32)
            (truncf .bf16 (shapeCast S64x128 x3 shapeCasts_S64x128_S64x128) bitsLt_bf16_f32)
            (truncf .bf16 (shapeCast S64x128 x4 shapeCasts_S64x128_S64x128) bitsLt_bf16_f32)
            (shapeCast S1x128 x5 shapeCasts_S1x128_S1x128))
          (broadcast S2000x128 (Scalar.ofBits .f32 0x00000000#32))) bitsLt_bf16_f32 := rfl

theorem k0_pay1_eq (x0 : Vec Ideal S2000x64 .f32) (x1 : Vec Ideal S2000x1 .f32) (x2 : Vec Ideal S2000x64 .f32)
    (x3 x4 : Vec Ideal S64x128 .f32) (x5 : Vec Ideal S1x128 .f32) :
    k0_pay1 (F := Ideal) x0 x1 x2 x3 x4 x5 = layerK true x0 x1 x2 x3 x4 x5 := by
  funext idx
  obtain ⟨p, q, rfl⟩ : ∃ (p : Fin 2000) (q : Fin 128), idx = ix2 p q := ⟨idx 0, idx 1, eq_ix2 idx⟩
  rw [layerK_apply, k0_pay1_core, truncf_apply, maximumf_apply, broadcast_apply, core_apply]
  show max (unitRow _ q) zeroW = max (unitRow (linK x0 x1 x2 x3 x4 x5 p) q) zeroW
  refine congrArg (fun y => max (unitRow y q) zeroW) (funext fun j => ?_)
  unfold linK
  simp only [truncf_apply, mulf_apply, shapeCast_self,
    Idealize.ShloMosaic.Keepdims.broadcastTo_a1_ab_apply _ _ _ _ (0 : Fin 1)]

end Cert.KernelIdeal.Pay

end
-- ==== Proof.KPay1.lean ====
/-
  The arithmetic of the second layer's body, as one function of the whole blocks it reads.

  The body scales the block of neighbour sums by the column of reciprocal counts copied along each row, multiplies the
  scaled block and the block of node features by the two weight matrices, adds the two products and the bias row copied
  along the rows, divides every row by its Euclidean length clamped below by a small constant, and clamps negative
  entries to zero.  The changes of number format and the reshapes to the same shape on the way are identities on the
  extended reals.  Entry `(p, q)` of the result is therefore the layer's entry for row `p` and column `q` of the block.
-/
import proofs.«121773_j33517924778074_2_alg».proof.Proof.Gen.KernelIdeal.Skeleton
import proofs.«121773_j33517924778074_2_alg».proof.Proof.Spec
import proofs.«121773_j33517924778074_2_alg».proof.Proof.LibKeepdims
import proofs.«121773_j33517924778074_2_alg».proof.Proof.LayerBody

noncomputable section

open scoped BigOperators

namespace Cert.KernelIdeal.Pay

open Cert.KernelIdeal Cert.KernelIdeal.Gen Cert.SageSpec Idealize.ShloMosaic Idealize.ShloMosaic.ValueIdx

/-- The body's arithmetic, with the part after the format changes of its operands named. -/
theorem k1_pay1_core (x0 : Vec Ideal S2000x128 .f32) (x1 : Vec Ideal S2000x1 .f32) (x2 : Vec Ideal S2000x128 .bf16)
    (x3 x4 : Vec Ideal S128x128 .f32) (x5 : Vec Ideal S1x128 .f32) :
    k1_pay1 (F := Ideal) x0 x1 x2 x3 x4 x5
      = truncf .bf16 (maximumf
          (core broadcasts_S1x128_S2000x128 reduces_S2000x128_S2000 shapeCasts_S2000_S2000x1
            broadcasts_S2000x1_S2000x128
            (truncf .bf16 (mulf (shapeCast S2000x128 x0 shapeCasts_S2000x128_S2000x128)
              (broadcastTo S2000x128 (shapeCast S2000x1 x1 shapeCasts_S2000x1_S2000x1) broadcasts_S2000x1_S2000x128))
              bitsLt_bf16_f32)
            (shapeCast S2000x128 x2 shapeCasts_S2000x128_S2000x128)
            (truncf .bf16 (shapeCast S128x128 x3 shapeCasts_S128x128_S128x128) bitsLt_bf16_f32)
            (truncf .bf16 (shapeCast S128x128 x4 shapeCasts_S128x128_S128x128) bitsLt_bf16_f32)
            (shapeCast S1x128 x5 shapeCasts_S1x128_S1x128))
          (broadcast S2000x128 (Scalar.ofBits .f32 0x00000000#32))) bitsLt_bf16_f32 := rfl

theorem k1_pay1_eq (x0 : Vec Ideal S2000x128 .f32) (x1 : Vec Ideal S2000x1 .f32) (x2 : Vec Ideal S2000x128 .bf16)
    (x3 x4 : Vec Ideal S128x128 .f32) (x5 : Vec Ideal S1x128 .f32) :
    k1_pay1 (F := Ideal) x0 x1 x2 x3 x4 x5 = layerK true x0 x1 x2 x3 x4 x5 := by
  funext idx
  obtain ⟨p, q, rfl⟩ : ∃ (p : Fin 2000) (q : Fin 128), idx = ix2 p q := ⟨idx 0, idx 1, eq_ix2 idx⟩
  rw [layerK_apply, k1_pay1_core, truncf_apply, maximumf_apply, broadcast_apply, core_apply]
  show max (unitRow _ q) zeroW = max (unitRow (linK x0 x1 x2 x3 x4 x5 p) q) zeroW
  refine congrArg (fun y => max (unitRow y q) zeroW) (funext fun j => ?_)
  unfold linK
  simp only [truncf_apply, mulf_apply, shapeCast_self,
    Idealize.ShloMosaic.Keepdims.broadcastTo_a1_ab_apply _ _ _ _ (0 : Fin 1)]

end Cert.KernelIdeal.Pay

end
-- ==== Proof.KPay2.lean ====
/-
  The arithmetic of the third layer's body, as one function of the whole blocks it reads.

  The body scales the block of neighbour sums by the column of reciprocal counts copied along each row, multiplies the
  scaled block and the block of node features by the two weight matrices, adds the two products and the bias row copied
  along the rows, and divides every row by its Euclidean length clamped below by a small constant; the last layer does
  not clamp negative entries.  The changes of number format and the reshapes to the same shape on the way are identities
  on the extended reals.  Entry `(p, q)` of the result is therefore the layer's entry for row `p` and column `q` of the
  block.
-/
import proofs.«121773_j33517924778074_2_alg».proof.Proof.Gen.KernelIdeal.Skeleton
import proofs.«121773_j33517924778074_2_alg».proof.Proof.Spec
import proofs.«121773_j33517924778074_2_alg».proof.Proof.LibKeepdims
import proofs.«121773_j33517924778074_2_alg».proof.Proof.LayerBody

noncomputable section

open scoped BigOperators

namespace Cert.KernelIdeal.Pay

open Cert.KernelIdeal Cert.KernelIdeal.Gen Cert.SageSpec Idealize.ShloMosaic Idealize.ShloMosaic.ValueIdx

/-- The body's arithmetic, with the part after the format changes of its operands named. -/
theorem k2_pay1_core (x0 : Vec Ideal S2000x128 .f32) (x1 : Vec Ideal S2000x1 .f32) (x2 : Vec Ideal S2000x128 .bf16)
    (x3 x4 : Vec Ideal S128x128 .f32) (x5 : Vec Ideal S1x128 .f32) :
    k2_pay1 (F := Ideal) x0 x1 x2 x3 x4 x5
      = (core broadcasts_S1x128_S2000x128 reduces_S2000x128_S2000 shapeCasts_S2000_S2000x1
            broadcasts_S2000x1_S2000x128
            (truncf .bf16 (mulf (shapeCast S2000x128 x0 shapeCasts_S2000x128_S2000x128)
              (broadcastTo S2000x128 (shapeCast S2000x1 x1 shapeCasts_S2000x1_S2000x1) broadcasts_S2000x1_S2000x128))
              bitsLt_bf16_f32)
            (shapeCast S2000x128 x2 shapeCasts_S2000x128_S2000x128)
            (truncf .bf16 (shapeCast S128x128 x3 shapeCasts_S128x128_S128x128) bitsLt_bf16_f32)
            (truncf .bf16 (shapeCast S128x128 x4 shapeCasts_S128x128_S128x128) bitsLt_bf16_f32)
            (shapeCast S1x128 x5 shapeCasts_S1x128_S1x128)) := rfl

theorem k2_pay1_eq (x0 : Vec Ideal S2000x128 .f32) (x1 : Vec Ideal S2000x1 .f32) (x2 : Vec Ideal S2000x128 .bf16)
    (x3 x4 : Vec Ideal S128x128 .f32) (x5 : Vec Ideal S1x128 .f32) :
    k2_pay1 (F := Ideal) x0 x1 x2 x3 x4 x5 = layerK false x0 x1 x2 x3 x4 x5 := by
  funext idx
  obtain ⟨p, q, rfl⟩ : ∃ (p : Fin 2000) (q : Fin 128), idx = ix2 p q := ⟨idx 0, idx 1, eq_ix2 idx⟩
  rw [layerK_apply, k2_pay1_core, core_apply]
  show unitRow _ q = unitRow (linK x0 x1 x2 x3 x4 x5 p) q
  refine congrArg (fun y => unitRow y q) (funext fun j => ?_)
  unfold linK
  simp only [truncf_apply, mulf_apply, shapeCast_self,
    Idealize.ShloMosaic.Keepdims.broadcastTo_a1_ab_apply _ _ _ _ (0 : Fin 1)]

end Cert.KernelIdeal.Pay

end
-- ==== Proof.KHost.lean ====
/-
  The host side of the idealized kernel, as terms of the argument arrays.

  Around its three launches the program prepares, on the host: the two rows of the edge list (sources and targets),
  the column of source rows a gather reads (a negative source shifted by the number of nodes) and the column of
  targets a scatter-add writes to; the neighbour count of every node (ones scatter-added at the targets), clamped
  below by one, and the column of its reciprocals; the transposed weight matrices and the bias rows; and, before
  each launch, the neighbour sums of the current features: the rows gathered at the sources and scatter-added at the
  targets.  Each of these is named here as a function of the arrays it is computed from, and each buffer a launch
  reads is shown to hold its term when the launch is entered: what a stretch of host operations computes is read
  off the stretch, and what an earlier stretch computed is carried unchanged through the launches and stretches that
  do not write it.
-/
import proofs.«121773_j33517924778074_2_alg».proof.Proof.Gen.KernelIdeal.Frame

set_option maxRecDepth 16384

noncomputable section

namespace Cert.KernelIdeal.HostSide

open Cert.KernelIdeal Cert.KernelIdeal.Gen
open Idealize.ShloMosaic Idealize.ShloMosaic.TcCoe Idealize.ShloMosaic.StableHlo Idealize.SL.Sem

variable {F : FTy → Type} [FloatOps F]

/-! ## The terms -/

/-- The sources of the edges: row 0 of the edge list. -/
def srcOf (e : (⟨S2x800000, .i32⟩ : BufTy).Contents (Elt F)) : (⟨S800000, .i32⟩ : BufTy).Contents (Elt F) :=
  shapeCast _ (extractStridedSlice S1x800000 ![0, 0] e Facts₀.slices_S2x800000_S1x800000_0_0) Facts₀.shapeCasts_S1x800000_S800000

/-- The targets of the edges: row 1 of the edge list. -/
def dstOf (e : (⟨S2x800000, .i32⟩ : BufTy).Contents (Elt F)) : (⟨S800000, .i32⟩ : BufTy).Contents (Elt F) :=
  shapeCast _ (extractStridedSlice S1x800000 ![1, 0] e Facts₀.slices_S2x800000_S1x800000_1_0) Facts₀.shapeCasts_S1x800000_S800000

/-- The column of rows a gather reads: each source, a negative one shifted by the number of nodes. -/
def srcCol (e : (⟨S2x800000, .i32⟩ : BufTy).Contents (Elt F)) : (⟨S800000x1, .i32⟩ : BufTy).Contents (Elt F) :=
  broadcastInDim S800000x1 ![0] Facts₀.bcast_S800000_S800000x1_0
    (select (cmpi .slt (srcOf (F := F) e) (broadcastInDim S800000 ![] Facts₀.bcast_S_S800000 (constantI S_ 32 0#32)))
      (addi (srcOf (F := F) e) (broadcastInDim S800000 ![] Facts₀.bcast_S_S800000 (constantI S_ 32 50000#32))) (srcOf (F := F) e))

/-- The column of rows a scatter-add writes to: the targets. -/
def dstCol (e : (⟨S2x800000, .i32⟩ : BufTy).Contents (Elt F)) : (⟨S800000x1, .i32⟩ : BufTy).Contents (Elt F) :=
  broadcastInDim S800000x1 ![0] Facts₀.bcast_S800000_S800000x1_0 (dstOf (F := F) e)

/-- The neighbour sums of 64 features per node. -/
def agg64 (h : (⟨S50000x64, .f32⟩ : BufTy).Contents (Elt F)) (e : (⟨S2x800000, .i32⟩ : BufTy).Contents (Elt F)) :
    (⟨S50000x64, .f32⟩ : BufTy).Contents (Elt F) :=
  Host.scatterAdd scatter_S50000x64_S800000x1_S800000x64_1_0_0_1
    (broadcastInDim S50000x64 ![] Facts₀.bcast_S_S50000x64 (constant S_ .f32 0x00000000#32)) (dstCol (F := F) e)
    (extf .f32 (Host.gather gather_S50000x64_S800000x1_S800000x64_1_0_n_n_0_1_164 (truncf .bf16 h Facts₀.bitsLt_bf16_f32) (srcCol (F := F) e)) Facts₀.bitsLt_bf16_f32)

/-- The neighbour sums of 128 features per node. -/
def agg128 (h : (⟨S50000x128, .bf16⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] Facts₀.bcast_S_S50000x128 (constant S_ .f32 0x00000000#32)) (dstCol (F := F) e)
    (extf .f32 (Host.gather gather_S50000x128_S800000x1_S800000x128_1_0_n_n_0_1_1128 h (srcCol (F := F) e)) Facts₀.bitsLt_bf16_f32)

/-- The neighbour count of every node, clamped below by one. -/
def den (e : (⟨S2x800000, .i32⟩ : BufTy).Contents (Elt F)) : (⟨S50000, .f32⟩ : BufTy).Contents (Elt F) :=
  maximumf (Host.scatterAdd scatter_S50000_S800000x1_S800000_n_0_0_1
      (broadcastInDim S50000 ![] Facts₀.bcast_S_S50000 (constant S_ .f32 0x00000000#32)) (dstCol (F := F) e)
      (broadcastInDim S800000 ![] Facts₀.bcast_S_S800000 (constant S_ .f32 0x3F800000#32)))
    (broadcastInDim S50000 ![] Facts₀.bcast_S_S50000 (constant S_ .f32 0x3F800000#32))

/-- The column of reciprocals of the clamped counts. -/
def cinv (e : (⟨S2x800000, .i32⟩ : BufTy).Contents (Elt F)) : (⟨S50000x1, .f32⟩ : BufTy).Contents (Elt F) :=
  shapeCast _ (Host.divf (broadcastInDim S50000 ![] Facts₀.bcast_S_S50000 (constant S_ .f32 0x3F800000#32)) (den (F := F) e))
    Facts₀.shapeCasts_S50000_S50000x1

/-- A weight matrix of the first layer, transposed. -/
def wT64 (w : (⟨S128x64, .f32⟩ : BufTy).Contents (Elt F)) : (⟨S64x128, .f32⟩ : BufTy).Contents (Elt F) :=
  transpose S64x128 [1, 0] w Facts₀.transposes_S128x64_S64x128_1_0

/-- A weight matrix of the later layers, transposed. -/
def wT128 (w : (⟨S128x128, .f32⟩ : BufTy).Contents (Elt F)) : (⟨S128x128, .f32⟩ : BufTy).Contents (Elt F) :=
  transpose S128x128 [1, 0] w Facts₀.transposes_S128x128_S128x128_1_0

/-- A bias vector as one row. -/
def bRow (b : (⟨S128, .f32⟩ : BufTy).Contents (Elt F)) : (⟨S1x128, .f32⟩ : BufTy).Contents (Elt F) :=
  shapeCast _ b Facts₀.shapeCasts_S128_S1x128

/-! ## What the buffers hold at the launches -/

variable (m : (ℓ : Loc nD τ sig) → Buf (Elt F) ℓ) (ρ : Dev nD → PrngReg) (c : Dev nD)

/-- An argument array at launch. -/
abbrev argAt (b : Ref sig .tc) : Buf (Elt F) ((c : Thread nD τ).loc b) := m ((c : Thread nD τ).loc b)

/-- A stretch of host operations leaves a buffer it does not write as it found it. -/
local macro "not_written_by" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ### After the first stretch -/

theorem W1_src : W1 m ρ c (Proc.devRef .tc main_v1) = srcOf (F := F) (argAt m c main_arg1) := by
  show StableHlo.after hostOps0 (W0 m ρ c) (Proc.devRef .tc main_v1) = _
  dsimp only [hostOps0]; after_results_simp <;> rfl

theorem W1_dst : W1 m ρ c (Proc.devRef .tc main_v3) = dstOf (F := F) (argAt m c main_arg1) := by
  show StableHlo.after hostOps0 (W0 m ρ c) (Proc.devRef .tc main_v3) = _
  dsimp only [hostOps0]; after_results_simp <;> rfl

theorem W1_cinv : W1 m ρ c (Proc.devRef .tc main_v12) = cinv (F := F) (argAt m c main_arg1) := by
  show StableHlo.after hostOps0 (W0 m ρ c) (Proc.devRef .tc main_v12) = _
  dsimp only [hostOps0]; after_results_simp <;> rfl

theorem W1_agg : W1 m ρ c (Proc.devRef .tc main_v30) = agg64 (F := F) (argAt m c main_arg0) (argAt m c main_arg1) := by
  show StableHlo.after hostOps0 (W0 m ρ c) (Proc.devRef .tc main_v30) = _
  dsimp only [hostOps0]; after_results_simp <;> rfl

theorem W1_x : W1 m ρ c (Proc.devRef .tc main_arg0) = argAt m c main_arg0 := by
  show StableHlo.after hostOps0 (W0 m ρ c) (Proc.devRef .tc main_arg0) = _
  dsimp only [hostOps0]; after_results_simp <;> rfl

theorem W1_wl0 : W1 m ρ c (Proc.devRef .tc main_v13) = wT64 (F := F) (argAt m c main_arg2) := by
  show StableHlo.after hostOps0 (W0 m ρ c) (Proc.devRef .tc main_v13) = _
  dsimp only [hostOps0]; after_results_simp <;> rfl

theorem W1_wr0 : W1 m ρ c (Proc.devRef .tc main_v14) = wT64 (F := F) (argAt m c main_arg4) := by
  show StableHlo.after hostOps0 (W0 m ρ c) (Proc.devRef .tc main_v14) = _
  dsimp only [hostOps0]; after_results_simp <;> rfl

theorem W1_wl1 : W1 m ρ c (Proc.devRef .tc main_v15) = wT128 (F := F) (argAt m c main_arg5) := by
  show StableHlo.after hostOps0 (W0 m ρ c) (Proc.devRef .tc main_v15) = _
  dsimp only [hostOps0]; after_results_simp <;> rfl

theorem W1_wr1 : W1 m ρ c (Proc.devRef .tc main_v16) = wT128 (F := F) (argAt m c main_arg7) := by
  show StableHlo.after hostOps0 (W0 m ρ c) (Proc.devRef .tc main_v16) = _
  dsimp only [hostOps0]; after_results_simp <;> rfl

theorem W1_wl2 : W1 m ρ c (Proc.devRef .tc main_v17) = wT128 (F := F) (argAt m c main_arg8) := by
  show StableHlo.after hostOps0 (W0 m ρ c) (Proc.devRef .tc main_v17) = _
  dsimp only [hostOps0]; after_results_simp <;> rfl

theorem W1_wr2 : W1 m ρ c (Proc.devRef .tc main_v18) = wT128 (F := F) (argAt m c main_arg10) := by
  show StableHlo.after hostOps0 (W0 m ρ c) (Proc.devRef .tc main_v18) = _
  dsimp only [hostOps0]; after_results_simp <;> rfl

theorem W1_b0 : W1 m ρ c (Proc.devRef .tc main_v31) = bRow (F := F) (argAt m c main_arg3) := by
  show StableHlo.after hostOps0 (W0 m ρ c) (Proc.devRef .tc main_v31) = _
  dsimp only [hostOps0]; after_results_simp <;> rfl

theorem W1_arg6 : W1 m ρ c (Proc.devRef .tc main_arg6) = argAt m c main_arg6 := by
  show StableHlo.after hostOps0 (W0 m ρ c) (Proc.devRef .tc main_arg6) = _
  dsimp only [hostOps0]; after_results_simp <;> rfl

theorem W1_arg9 : W1 m ρ c (Proc.devRef .tc main_arg9) = argAt m c main_arg9 := by
  show StableHlo.after hostOps0 (W0 m ρ c) (Proc.devRef .tc main_arg9) = _
  dsimp only [hostOps0]; after_results_simp <;> rfl

/-! ### Carried through the first launch: no window of it is one of these buffers -/

theorem W2_src : W2 m ρ c (Proc.devRef .tc main_v1) = srcOf (F := F) (argAt m c main_arg1) :=
  (W2_of_ne m ρ c main_v1 (by decide)).trans (W1_src m ρ c)
theorem W2_dst : W2 m ρ c (Proc.devRef .tc main_v3) = dstOf (F := F) (argAt m c main_arg1) :=
  (W2_of_ne m ρ c main_v3 (by decide)).trans (W1_dst m ρ c)
theorem W2_arg6 : W2 m ρ c (Proc.devRef .tc main_arg6) = argAt m c main_arg6 :=
  (W2_of_ne m ρ c main_arg6 (by decide)).trans (W1_arg6 m ρ c)

/-! ### The second stretch: the neighbour sums of the first layer's result, and the second bias row -/

theorem W3_agg : W3 m ρ c (Proc.devRef .tc main_v43)
    = agg128 (F := F) (W2 m ρ c (Proc.devRef .tc main_v32)) (argAt m c main_arg1) := by
  show StableHlo.after hostOps1 (W2 m ρ c) (Proc.devRef .tc main_v43) = _
  dsimp only [hostOps1]; after_results_simp
  rw [W2_src m ρ c, W2_dst m ρ c]; rfl

theorem W3_b1 : W3 m ρ c (Proc.devRef .tc main_v44) = bRow (F := F) (argAt m c main_arg6) := by
  show StableHlo.after hostOps1 (W2 m ρ c) (Proc.devRef .tc main_v44) = _
  dsimp only [hostOps1]; after_results_simp
  rw [W2_arg6 m ρ c]; rfl

theorem W3_h : W3 m ρ c (Proc.devRef .tc main_v32) = W2 m ρ c (Proc.devRef .tc main_v32) := by
  not_written_by hostOps1

theorem W3_cinv : W3 m ρ c (Proc.devRef .tc main_v12) = cinv (F := F) (argAt m c main_arg1) :=
  calc W3 m ρ c (Proc.devRef .tc main_v12)
    _ = W2 m ρ c (Proc.devRef .tc main_v12) := by not_written_by hostOps1
    _ = W1 m ρ c (Proc.devRef .tc main_v12) := (W2_arr m ρ c 1).trans (((dat0 (V1 m ρ) c).arrAt_in 1 rfl _).trans (A_eq0 (V1 m ρ) c 1))
    _ = _ := W1_cinv m ρ c

theorem W3_wl1 : W3 m ρ c (Proc.devRef .tc main_v15) = wT128 (F := F) (argAt m c main_arg5) :=
  calc W3 m ρ c (Proc.devRef .tc main_v15)
    _ = W2 m ρ c (Proc.devRef .tc main_v15) := by not_written_by hostOps1
    _ = W1 m ρ c (Proc.devRef .tc main_v15) := W2_of_ne m ρ c main_v15 (by decide)
    _ = _ := W1_wl1 m ρ c

theorem W3_wr1 : W3 m ρ c (Proc.devRef .tc main_v16) = wT128 (F := F) (argAt m c main_arg7) :=
  calc W3 m ρ c (Proc.devRef .tc main_v16)
    _ = W2 m ρ c (Proc.devRef .tc main_v16) := by not_written_by hostOps1
    _ = W1 m ρ c (Proc.devRef .tc main_v16) := W2_of_ne m ρ c main_v16 (by decide)
    _ = _ := W1_wr1 m ρ c

theorem W3_src : W3 m ρ c (Proc.devRef .tc main_v1) = srcOf (F := F) (argAt m c main_arg1) :=
  (by not_written_by hostOps1 : W3 m ρ c (Proc.devRef .tc main_v1) = W2 m ρ c (Proc.devRef .tc main_v1)).trans (W2_src m ρ c)
theorem W3_dst : W3 m ρ c (Proc.devRef .tc main_v3) = dstOf (F := F) (argAt m c main_arg1) :=
  (by not_written_by hostOps1 : W3 m ρ c (Proc.devRef .tc main_v3) = W2 m ρ c (Proc.devRef .tc main_v3)).trans (W2_dst m ρ c)
theorem W3_wl2 : W3 m ρ c (Proc.devRef .tc main_v17) = wT128 (F := F) (argAt m c main_arg8) :=
  calc W3 m ρ c (Proc.devRef .tc main_v17)
    _ = W2 m ρ c (Proc.devRef .tc main_v17) := by not_written_by hostOps1
    _ = W1 m ρ c (Proc.devRef .tc main_v17) := W2_of_ne m ρ c main_v17 (by decide)
    _ = _ := W1_wl2 m ρ c
theorem W3_wr2 : W3 m ρ c (Proc.devRef .tc main_v18) = wT128 (F := F) (argAt m c main_arg10) :=
  calc W3 m ρ c (Proc.devRef .tc main_v18)
    _ = W2 m ρ c (Proc.devRef .tc main_v18) := by not_written_by hostOps1
    _ = W1 m ρ c (Proc.devRef .tc main_v18) := W2_of_ne m ρ c main_v18 (by decide)
    _ = _ := W1_wr2 m ρ c
theorem W3_arg9 : W3 m ρ c (Proc.devRef .tc main_arg9) = argAt m c main_arg9 :=
  calc W3 m ρ c (Proc.devRef .tc main_arg9)
    _ = W2 m ρ c (Proc.devRef .tc main_arg9) := by not_written_by hostOps1
    _ = W1 m ρ c (Proc.devRef .tc main_arg9) := W2_of_ne m ρ c main_arg9 (by decide)
    _ = _ := W1_arg9 m ρ c

/-! ### Carried through the second launch -/

theorem W4_src : W4 m ρ c (Proc.devRef .tc main_v1) = srcOf (F := F) (argAt m c main_arg1) :=
  (W4_of_ne m ρ c main_v1 (by decide)).trans (W3_src m ρ c)
theorem W4_dst : W4 m ρ c (Proc.devRef .tc main_v3) = dstOf (F := F) (argAt m c main_arg1) :=
  (W4_of_ne m ρ c main_v3 (by decide)).trans (W3_dst m ρ c)
theorem W4_arg9 : W4 m ρ c (Proc.devRef .tc main_arg9) = argAt m c main_arg9 :=
  (W4_of_ne m ρ c main_arg9 (by decide)).trans (W3_arg9 m ρ c)

/-! ### The third stretch: the neighbour sums of the second layer's result, and the third bias row -/

theorem W5_agg : W5 m ρ c (Proc.devRef .tc main_v56)
    = agg128 (F := F) (W4 m ρ c (Proc.devRef .tc main_v45)) (argAt m c main_arg1) := by
  show StableHlo.after hostOps2 (W4 m ρ c) (Proc.devRef .tc main_v56) = _
  dsimp only [hostOps2]; after_results_simp
  rw [W4_src m ρ c, W4_dst m ρ c]; rfl

theorem W5_b2 : W5 m ρ c (Proc.devRef .tc main_v57) = bRow (F := F) (argAt m c main_arg9) := by
  show StableHlo.after hostOps2 (W4 m ρ c) (Proc.devRef .tc main_v57) = _
  dsimp only [hostOps2]; after_results_simp
  rw [W4_arg9 m ρ c]; rfl

theorem W5_h : W5 m ρ c (Proc.devRef .tc main_v45) = W4 m ρ c (Proc.devRef .tc main_v45) := by
  not_written_by hostOps2

theorem W5_cinv : W5 m ρ c (Proc.devRef .tc main_v12) = cinv (F := F) (argAt m c main_arg1) :=
  calc W5 m ρ c (Proc.devRef .tc main_v12)
    _ = W4 m ρ c (Proc.devRef .tc main_v12) := by not_written_by hostOps2
    _ = W3 m ρ c (Proc.devRef .tc main_v12) := (W4_arr m ρ c 1).trans (((dat1 (V3 m ρ) c).arrAt_in 1 rfl _).trans (A_eq1 (V3 m ρ) c 1))
    _ = _ := W3_cinv m ρ c

theorem W5_wl2 : W5 m ρ c (Proc.devRef .tc main_v17) = wT128 (F := F) (argAt m c main_arg8) :=
  calc W5 m ρ c (Proc.devRef .tc main_v17)
    _ = W4 m ρ c (Proc.devRef .tc main_v17) := by not_written_by hostOps2
    _ = W3 m ρ c (Proc.devRef .tc main_v17) := W4_of_ne m ρ c main_v17 (by decide)
    _ = _ := W3_wl2 m ρ c

theorem W5_wr2 : W5 m ρ c (Proc.devRef .tc main_v18) = wT128 (F := F) (argAt m c main_arg10) :=
  calc W5 m ρ c (Proc.devRef .tc main_v18)
    _ = W4 m ρ c (Proc.devRef .tc main_v18) := by not_written_by hostOps2
    _ = W3 m ρ c (Proc.devRef .tc main_v18) := W4_of_ne m ρ c main_v18 (by decide)
    _ = _ := W3_wr2 m ρ c

/-! ### What each launch leaves in its result buffer -/

theorem W2_out : W2 m ρ c (Proc.devRef .tc main_v32) = (dat0 (V1 m ρ) c).arrAt 6 cfg0.N := W2_arr m ρ c 6
theorem W4_out : W4 m ρ c (Proc.devRef .tc main_v45) = (dat1 (V3 m ρ) c).arrAt 6 cfg1.N := W4_arr m ρ c 6
theorem W6_out : W6 m ρ c (Proc.devRef .tc main_v58) = (dat2 (V5 m ρ) c).arrAt 6 cfg2.N := W6_arr m ρ c 6

end Cert.KernelIdeal.HostSide

end
-- ==== Proof.Final0.lean ====
/-
  From blocks to the array, first layer.

  The first layer runs over 25 grid points; point t handles rows 2000·t … 2000·t + 1999 of the 50000 nodes.  Each of the
  three row-indexed operands (neighbour sums, reciprocal column, node features) is staged block by block with the same
  row offset; the two weight matrices and the bias are staged whole.  Given that the body's arithmetic on one block is
  the layer of that block (the hypothesis of the closing theorem), what point t writes back is rows 2000·t … of the
  layer of the whole arrays, because a row of the layer depends only on the same row of the row-indexed operands.  The
  25 blocks tile the 50000 rows, so the array ends holding the layer of the whole arrays.
-/
import proofs.«121773_j33517924778074_2_alg».proof.Proof.Gen.KernelIdeal.Frame
import proofs.«121773_j33517924778074_2_alg».proof.Proof.Spec
import Idealize.ShloMosaic.Lib.Pipeline.Value
import Idealize.ShloMosaic.Lib.ValueIdx

set_option maxRecDepth 16384

noncomputable section

namespace Cert.KernelIdeal.Final

open Cert.KernelIdeal Cert.KernelIdeal.Gen Cert.SageSpec Idealize.ShloMosaic Idealize.ShloMosaic.TcCoe
open Idealize.ShloMosaic.ValueIdx Idealize.SL.Sem
open Idealize.ShloMosaic.Pipeline (Dat)

/-- The zero offsets, however spelt. -/
theorem zeroOff0 : (![0, 0] : Fin 2 → Nat) = fun _ => 0 := funext fun a => by fin_cases a <;> rfl

/-- The printed index maps of the first layer, decided over the 25 points: the row-indexed windows (0, 1, 2 and the
    output 6) are at block row t and block column 0; the whole-array windows (3, 4, 5) stay at block (0, 0). -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A point's number is below 25. -/
theorem point0_lt (t : Fin cfg0.N) : t.val < 25 := by
  have h : cfg0.N = 25 := N_0
  have := t.isLt
  omega

/-- Row p of point t's block is row 2000·t + p of the array. -/
def row0 (t : Fin cfg0.N) (p : Fin 2000) : Fin 50000 :=
  ⟨t.val * 2000 + p.val, by have := point0_lt t; have := p.isLt; omega⟩

variable (V : (c : Dev nD) → (b : Ref sig .tc) → Buf (Elt Ideal) ((c : Thread nD τ).loc b))

/-- The neighbour sums' block at point t is rows 2000·t … of the array. -/
theorem aggBlock0 (c : Dev nD) (t : Fin cfg0.N) (p : Fin 2000) (k : Fin 64) :
    (iblk0 (F := Ideal) V c 0 t : Mat 2000 64) (ix2 p k) = (V c main_v30 : Mat 50000 64) (ix2 (row0 t p) k) := by
  obtain ⟨e0, e1, -⟩ := index0 t
  have e : ((cfg0.win 0).blk t).view.emb (ix2 p k : S2000x64.Idx) = (ix2 (row0 t p) k : S50000x64.Idx) := by
    funext a; apply Fin.ext
    match a with
    | ⟨0, _⟩ => show win0_0.index t (0 : Fin 2) * 2000 + 1 * p.val = t.val * 2000 + p.val; omega
    | ⟨1, _⟩ => show win0_0.index t (1 : Fin 2) * 64 + 1 * k.val = k.val; omega
  show (V c main_v30 : Mat 50000 64) (((cfg0.win 0).blk t).view.emb (ix2 p k : S2000x64.Idx)) = _
  rw [e]

/-- The reciprocal column's block at point t is rows 2000·t … of the column. -/
theorem cinvBlock0 (c : Dev nD) (t : Fin cfg0.N) (p : Fin 2000) :
    (iblk0 (F := Ideal) V c 1 t : Mat 2000 1) (ix2 p 0) = (V c main_v12 : Mat 50000 1) (ix2 (row0 t p) 0) := by
  obtain ⟨-, -, e0, e1, -⟩ := index0 t
  have e : ((cfg0.win 1).blk t).view.emb (ix2 p 0 : S2000x1.Idx) = (ix2 (row0 t p) 0 : S50000x1.Idx) := by
    funext a; apply Fin.ext
    match a with
    | ⟨0, _⟩ => show win0_1.index t (0 : Fin 2) * 2000 + 1 * p.val = t.val * 2000 + p.val; omega
    | ⟨1, _⟩ => show win0_1.index t (1 : Fin 2) * 1 + 1 * 0 = 0; omega
  show (V c main_v12 : Mat 50000 1) (((cfg0.win 1).blk t).view.emb (ix2 p 0 : S2000x1.Idx)) = _
  rw [e]

/-- The node features' block at point t is rows 2000·t … of the array. -/
theorem featBlock0 (c : Dev nD) (t : Fin cfg0.N) (p : Fin 2000) (k : Fin 64) :
    (iblk0 (F := Ideal) V c 2 t : Mat 2000 64) (ix2 p k) = (V c main_arg0 : Mat 50000 64) (ix2 (row0 t p) k) := by
  obtain ⟨-, -, -, -, e0, e1, -⟩ := index0 t
  have e : ((cfg0.win 2).blk t).view.emb (ix2 p k : S2000x64.Idx) = (ix2 (row0 t p) k : S50000x64.Idx) := by
    funext a; apply Fin.ext
    match a with
    | ⟨0, _⟩ => show win0_2.index t (0 : Fin 2) * 2000 + 1 * p.val = t.val * 2000 + p.val; omega
    | ⟨1, _⟩ => show win0_2.index t (1 : Fin 2) * 64 + 1 * k.val = k.val; omega
  show (V c main_arg0 : Mat 50000 64) (((cfg0.win 2).blk t).view.emb (ix2 p k : S2000x64.Idx)) = _
  rw [e]

/-- The first weight matrix is staged whole. -/
theorem wlBlock0 (c : Dev nD) (t : Fin cfg0.N) : (iblk0 (F := Ideal) V c 3 t : Mat 64 128) = V c main_v13 := by
  obtain ⟨-, -, -, -, -, -, e0, e1, -⟩ := index0 t
  funext j
  have e : ((cfg0.win 3).blk t).view.emb (j : S64x128.Idx) = (j : S64x128.Idx) := by
    funext a; apply Fin.ext
    match a with
    | ⟨0, _⟩ => show win0_3.index t (0 : Fin 2) * 64 + 1 * (j 0).val = (j 0).val; omega
    | ⟨1, _⟩ => show win0_3.index t (1 : Fin 2) * 128 + 1 * (j 1).val = (j 1).val; omega
  show (V c main_v13 : Mat 64 128) (((cfg0.win 3).blk t).view.emb (j : S64x128.Idx)) = _
  rw [e]

/-- The second weight matrix is staged whole. -/
theorem wrBlock0 (c : Dev nD) (t : Fin cfg0.N) : (iblk0 (F := Ideal) V c 4 t : Mat 64 128) = V c main_v14 := by
  obtain ⟨-, -, -, -, -, -, -, -, e0, e1, -⟩ := index0 t
  funext j
  have e : ((cfg0.win 4).blk t).view.emb (j : S64x128.Idx) = (j : S64x128.Idx) := by
    funext a; apply Fin.ext
    match a with
    | ⟨0, _⟩ => show win0_4.index t (0 : Fin 2) * 64 + 1 * (j 0).val = (j 0).val; omega
    | ⟨1, _⟩ => show win0_4.index t (1 : Fin 2) * 128 + 1 * (j 1).val = (j 1).val; omega
  show (V c main_v14 : Mat 64 128) (((cfg0.win 4).blk t).view.emb (j : S64x128.Idx)) = _
  rw [e]

/-- The bias row is staged whole. -/
theorem biasBlock0 (c : Dev nD) (t : Fin cfg0.N) : (iblk0 (F := Ideal) V c 5 t : Mat 1 128) = V c main_v31 := by
  obtain ⟨-, -, -, -, -, -, -, -, -, -, e0, e1, -⟩ := index0 t
  funext j
  have e : ((cfg0.win 5).blk t).view.emb (j : S1x128.Idx) = (j : S1x128.Idx) := by
    funext a; apply Fin.ext
    match a with
    | ⟨0, _⟩ => show win0_5.index t (0 : Fin 2) * 1 + 1 * (j 0).val = (j 0).val; omega
    | ⟨1, _⟩ => show win0_5.index t (1 : Fin 2) * 128 + 1 * (j 1).val = (j 1).val; omega
  show (V c main_v31 : Mat 1 128) (((cfg0.win 5).blk t).view.emb (j : S1x128.Idx)) = _
  rw [e]

/-- The layer of the whole arrays as the first region finds them. -/
abbrev layer0 (c : Dev nD) : Mat 50000 128 :=
  layerK true (V c main_v30) (V c main_v12) (V c main_arg0) (V c main_v13) (V c main_v14) (V c main_v31)

/-- What point t writes back is rows 2000·t … of the layer of the whole arrays. -/
theorem flushed0
    (hpay : ∀ (x0 : Vec Ideal S2000x64 .f32) (x1 : Vec Ideal S2000x1 .f32) (x2 : Vec Ideal S2000x64 .f32)
      (x3 x4 : Vec Ideal S64x128 .f32) (x5 : Vec Ideal S1x128 .f32),
      k0_pay1 (F := Ideal) x0 x1 x2 x3 x4 x5 = layerK true x0 x1 x2 x3 x4 x5)
    (c : Dev nD) (t : Fin cfg0.N) :
    (dat0 (F := Ideal) V c).flushed 6 t = ((cfg0.win 6).blk t).view.read (Elt Ideal) (layer0 V c) := by
  show (cfg0.win 6).cut (grid0.coords t) ((dat0 V c).after 6 t) = _
  rw [after0_6]
  unfold out0_6
  rw [View.canon_unit_zero zeroOff0]
  simp only [View.ld_unit_zero (S := S2000x64) zeroOff0, View.ld_unit_zero (S := S2000x1) zeroOff0,
    View.ld_unit_zero (S := S64x128) zeroOff0, View.ld_unit_zero (S := S1x128) zeroOff0]
  rw [hpay, wlBlock0, wrBlock0, biasBlock0]
  obtain ⟨-, -, -, -, -, -, -, -, -, -, -, -, e0, e1⟩ := index0 t
  funext j
  obtain ⟨p, q, rfl⟩ : ∃ (p : Fin 2000) (q : Fin 128), j = ix2 p q := ⟨j 0, j 1, eq_ix2 j⟩
  have e : ((cfg0.win 6).blk t).view.emb (ix2 p q : S2000x128.Idx) = (ix2 (row0 t p) q : S50000x128.Idx) := by
    funext a; apply Fin.ext
    match a with
    | ⟨0, _⟩ => show win0_6.index t (0 : Fin 2) * 2000 + 1 * p.val = t.val * 2000 + p.val; omega
    | ⟨1, _⟩ => show win0_6.index t (1 : Fin 2) * 128 + 1 * q.val = q.val; omega
  show layerK true (iblk0 (F := Ideal) V c 0 t : Mat 2000 64) (iblk0 (F := Ideal) V c 1 t : Mat 2000 1)
      (iblk0 (F := Ideal) V c 2 t : Mat 2000 64) (V c main_v13) (V c main_v14) (V c main_v31) (ix2 p q)
    = layer0 V c (((cfg0.win 6).blk t).view.emb (ix2 p q : S2000x128.Idx))
  rw [e]
  exact layerK_rows true (row0 t) (V c main_v30) (V c main_v12) (V c main_arg0) _ _ _ _ _ _
    (aggBlock0 V c t) (cinvBlock0 V c t) (featBlock0 V c t) p q

/-- Row i of the output is in point t's block iff it is among rows 2000·t …, and the column is in range. -/
theorem mem_block0 (t : Fin cfg0.N) (i : S50000x128.Idx) :
    i ∈ ((cfg0.win 6).blk t).view.set ↔
      ∀ a : Fin 2, win0_6.index t a * S2000x128.size a ≤ (i a).val ∧ (i a).val < win0_6.index t a * S2000x128.size a + S2000x128.size a := by
  show i ∈ ((View.whole main_v32).slice (win0_6.rect t)).set ↔ _
  rw [View.set_slice_whole, Rect.mem_set_unit]
  exact Iff.rfl

/-- Every row of the output is in the block of the point (row / 2000). -/
theorem cover0 (i : S50000x128.Idx) :
    ∃ t : Fin cfg0.N, (cfg0.win 6).flush t = true ∧ i ∈ ((cfg0.win 6).blk t).view.set := by
  have hN : cfg0.N = 25 := N_0
  have hi0 : (i 0).val < 50000 := (i 0).isLt
  have hi1 : (i 1).val < 128 := (i 1).isLt
  let t : Fin cfg0.N := ⟨(i 0).val / 2000, by rw [hN]; omega⟩
  have ht : t.val = (i 0).val / 2000 := rfl
  obtain ⟨-, -, -, -, -, -, -, -, -, -, -, -, e0, e1⟩ := index0 t
  refine ⟨t, flush0_6 t, ?_⟩
  rw [mem_block0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE ARRAY after the first region: the layer of the arrays the region found. -/
theorem final0
    (hpay : ∀ (x0 : Vec Ideal S2000x64 .f32) (x1 : Vec Ideal S2000x1 .f32) (x2 : Vec Ideal S2000x64 .f32)
      (x3 x4 : Vec Ideal S64x128 .f32) (x5 : Vec Ideal S1x128 .f32),
      k0_pay1 (F := Ideal) x0 x1 x2 x3 x4 x5 = layerK true x0 x1 x2 x3 x4 x5)
    (V : (c : Dev nD) → (b : Ref sig .tc) → Buf (Elt Ideal) ((c : Thread nD τ).loc b)) (c : Dev nD) :
    (dat0 (F := Ideal) V c).arrAt 6 cfg0.N
      = layerK true (V c main_v30) (V c main_v12) (V c main_arg0) (V c main_v13) (V c main_v14) (V c main_v31) :=
  (dat0 (F := Ideal) V c).arrAt_eq_of_cover 6 (layer0 V c) (fun t _ => flushed0 V hpay c t) cover0

end Cert.KernelIdeal.Final

end
-- ==== Proof.Final1.lean ====
/-
  From blocks to the array, second layer.

  The second layer runs over 25 grid points; point t handles rows 2000·t … 2000·t + 1999 of the 50000 nodes.  Each of the
  three row-indexed operands (neighbour sums, reciprocal column, node features) is staged block by block with the same
  row offset; the two weight matrices and the bias are staged whole.  Given that the body's arithmetic on one block is
  the layer of that block (the hypothesis of the closing theorem), what point t writes back is rows 2000·t … of the
  layer of the whole arrays, because a row of the layer depends only on the same row of the row-indexed operands.  The
  25 blocks tile the 50000 rows, so the array ends holding the layer of the whole arrays.
  The node features of this layer are the previous layer's result in a narrower format; on the extended reals a format
  holds the same numbers, so nothing changes.
-/
import proofs.«121773_j33517924778074_2_alg».proof.Proof.Gen.KernelIdeal.Frame
import proofs.«121773_j33517924778074_2_alg».proof.Proof.Spec
import Idealize.ShloMosaic.Lib.Pipeline.Value
import Idealize.ShloMosaic.Lib.ValueIdx

set_option maxRecDepth 16384

noncomputable section

namespace Cert.KernelIdeal.Final

open Cert.KernelIdeal Cert.KernelIdeal.Gen Cert.SageSpec Idealize.ShloMosaic Idealize.ShloMosaic.TcCoe
open Idealize.ShloMosaic.ValueIdx Idealize.SL.Sem
open Idealize.ShloMosaic.Pipeline (Dat)

/-- The zero offsets, however spelt. -/
theorem zeroOff1 : (![0, 0] : Fin 2 → Nat) = fun _ => 0 := funext fun a => by fin_cases a <;> rfl

/-- The printed index maps of the second layer, decided over the 25 points: the row-indexed windows (0, 1, 2 and the
    output 6) are at block row t and block column 0; the whole-array windows (3, 4, 5) stay at block (0, 0). -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A point's number is below 25. -/
theorem point1_lt (t : Fin cfg1.N) : t.val < 25 := by
  have h : cfg1.N = 25 := N_1
  have := t.isLt
  omega

/-- Row p of point t's block is row 2000·t + p of the array. -/
def row1 (t : Fin cfg1.N) (p : Fin 2000) : Fin 50000 :=
  ⟨t.val * 2000 + p.val, by have := point1_lt t; have := p.isLt; omega⟩

variable (V : (c : Dev nD) → (b : Ref sig .tc) → Buf (Elt Ideal) ((c : Thread nD τ).loc b))

/-- The neighbour sums' block at point t is rows 2000·t … of the array. -/
theorem aggBlock1 (c : Dev nD) (t : Fin cfg1.N) (p : Fin 2000) (k : Fin 128) :
    (iblk1 (F := Ideal) V c 0 t : Mat 2000 128) (ix2 p k) = (V c main_v43 : Mat 50000 128) (ix2 (row1 t p) k) := by
  obtain ⟨e0, e1, -⟩ := index1 t
  have e : ((cfg1.win 0).blk t).view.emb (ix2 p k : S2000x128.Idx) = (ix2 (row1 t p) k : S50000x128.Idx) := by
    funext a; apply Fin.ext
    match a with
    | ⟨0, _⟩ => show win1_0.index t (0 : Fin 2) * 2000 + 1 * p.val = t.val * 2000 + p.val; omega
    | ⟨1, _⟩ => show win1_0.index t (1 : Fin 2) * 128 + 1 * k.val = k.val; omega
  show (V c main_v43 : Mat 50000 128) (((cfg1.win 0).blk t).view.emb (ix2 p k : S2000x128.Idx)) = _
  rw [e]

/-- The reciprocal column's block at point t is rows 2000·t … of the column. -/
theorem cinvBlock1 (c : Dev nD) (t : Fin cfg1.N) (p : Fin 2000) :
    (iblk1 (F := Ideal) V c 1 t : Mat 2000 1) (ix2 p 0) = (V c main_v12 : Mat 50000 1) (ix2 (row1 t p) 0) := by
  obtain ⟨-, -, e0, e1, -⟩ := index1 t
  have e : ((cfg1.win 1).blk t).view.emb (ix2 p 0 : S2000x1.Idx) = (ix2 (row1 t p) 0 : S50000x1.Idx) := by
    funext a; apply Fin.ext
    match a with
    | ⟨0, _⟩ => show win1_1.index t (0 : Fin 2) * 2000 + 1 * p.val = t.val * 2000 + p.val; omega
    | ⟨1, _⟩ => show win1_1.index t (1 : Fin 2) * 1 + 1 * 0 = 0; omega
  show (V c main_v12 : Mat 50000 1) (((cfg1.win 1).blk t).view.emb (ix2 p 0 : S2000x1.Idx)) = _
  rw [e]

/-- The node features' block at point t is rows 2000·t … of the array. -/
theorem featBlock1 (c : Dev nD) (t : Fin cfg1.N) (p : Fin 2000) (k : Fin 128) :
    (iblk1 (F := Ideal) V c 2 t : Mat 2000 128) (ix2 p k) = (V c main_v32 : Mat 50000 128) (ix2 (row1 t p) k) := by
  obtain ⟨-, -, -, -, e0, e1, -⟩ := index1 t
  have e : ((cfg1.win 2).blk t).view.emb (ix2 p k : S2000x128.Idx) = (ix2 (row1 t p) k : S50000x128.Idx) := by
    funext a; apply Fin.ext
    match a with
    | ⟨0, _⟩ => show win1_2.index t (0 : Fin 2) * 2000 + 1 * p.val = t.val * 2000 + p.val; omega
    | ⟨1, _⟩ => show win1_2.index t (1 : Fin 2) * 128 + 1 * k.val = k.val; omega
  show (V c main_v32 : Mat 50000 128) (((cfg1.win 2).blk t).view.emb (ix2 p k : S2000x128.Idx)) = _
  rw [e]

/-- The first weight matrix is staged whole. -/
theorem wlBlock1 (c : Dev nD) (t : Fin cfg1.N) : (iblk1 (F := Ideal) V c 3 t : Mat 128 128) = V c main_v15 := by
  obtain ⟨-, -, -, -, -, -, e0, e1, -⟩ := index1 t
  funext j
  have e : ((cfg1.win 3).blk t).view.emb (j : S128x128.Idx) = (j : S128x128.Idx) := by
    funext a; apply Fin.ext
    match a with
    | ⟨0, _⟩ => show win1_3.index t (0 : Fin 2) * 128 + 1 * (j 0).val = (j 0).val; omega
    | ⟨1, _⟩ => show win1_3.index t (1 : Fin 2) * 128 + 1 * (j 1).val = (j 1).val; omega
  show (V c main_v15 : Mat 128 128) (((cfg1.win 3).blk t).view.emb (j : S128x128.Idx)) = _
  rw [e]

/-- The second weight matrix is staged whole. -/
theorem wrBlock1 (c : Dev nD) (t : Fin cfg1.N) : (iblk1 (F := Ideal) V c 4 t : Mat 128 128) = V c main_v16 := by
  obtain ⟨-, -, -, -, -, -, -, -, e0, e1, -⟩ := index1 t
  funext j
  have e : ((cfg1.win 4).blk t).view.emb (j : S128x128.Idx) = (j : S128x128.Idx) := by
    funext a; apply Fin.ext
    match a with
    | ⟨0, _⟩ => show win1_4.index t (0 : Fin 2) * 128 + 1 * (j 0).val = (j 0).val; omega
    | ⟨1, _⟩ => show win1_4.index t (1 : Fin 2) * 128 + 1 * (j 1).val = (j 1).val; omega
  show (V c main_v16 : Mat 128 128) (((cfg1.win 4).blk t).view.emb (j : S128x128.Idx)) = _
  rw [e]

/-- The bias row is staged whole. -/
theorem biasBlock1 (c : Dev nD) (t : Fin cfg1.N) : (iblk1 (F := Ideal) V c 5 t : Mat 1 128) = V c main_v44 := by
  obtain ⟨-, -, -, -, -, -, -, -, -, -, e0, e1, -⟩ := index1 t
  funext j
  have e : ((cfg1.win 5).blk t).view.emb (j : S1x128.Idx) = (j : S1x128.Idx) := by
    funext a; apply Fin.ext
    match a with
    | ⟨0, _⟩ => show win1_5.index t (0 : Fin 2) * 1 + 1 * (j 0).val = (j 0).val; omega
    | ⟨1, _⟩ => show win1_5.index t (1 : Fin 2) * 128 + 1 * (j 1).val = (j 1).val; omega
  show (V c main_v44 : Mat 1 128) (((cfg1.win 5).blk t).view.emb (j : S1x128.Idx)) = _
  rw [e]

/-- The layer of the whole arrays as the second region finds them. -/
abbrev layer1 (c : Dev nD) : Mat 50000 128 :=
  layerK true (V c main_v43) (V c main_v12) (V c main_v32) (V c main_v15) (V c main_v16) (V c main_v44)

/-- What point t writes back is rows 2000·t … of the layer of the whole arrays. -/
theorem flushed1
    (hpay : ∀ (x0 : Vec Ideal S2000x128 .f32) (x1 : Vec Ideal S2000x1 .f32) (x2 : Vec Ideal S2000x128 .bf16)
      (x3 x4 : Vec Ideal S128x128 .f32) (x5 : Vec Ideal S1x128 .f32),
      k1_pay1 (F := Ideal) x0 x1 x2 x3 x4 x5 = layerK true x0 x1 x2 x3 x4 x5)
    (c : Dev nD) (t : Fin cfg1.N) :
    (dat1 (F := Ideal) V c).flushed 6 t = ((cfg1.win 6).blk t).view.read (Elt Ideal) (layer1 V c) := by
  show (cfg1.win 6).cut (grid1.coords t) ((dat1 V c).after 6 t) = _
  rw [after1_6]
  unfold out1_6
  rw [View.canon_unit_zero zeroOff1]
  simp only [View.ld_unit_zero (S := S2000x128) zeroOff1, View.ld_unit_zero (S := S2000x1) zeroOff1,
    View.ld_unit_zero (S := S128x128) zeroOff1, View.ld_unit_zero (S := S1x128) zeroOff1]
  rw [hpay, wlBlock1, wrBlock1, biasBlock1]
  obtain ⟨-, -, -, -, -, -, -, -, -, -, -, -, e0, e1⟩ := index1 t
  funext j
  obtain ⟨p, q, rfl⟩ : ∃ (p : Fin 2000) (q : Fin 128), j = ix2 p q := ⟨j 0, j 1, eq_ix2 j⟩
  have e : ((cfg1.win 6).blk t).view.emb (ix2 p q : S2000x128.Idx) = (ix2 (row1 t p) q : S50000x128.Idx) := by
    funext a; apply Fin.ext
    match a with
    | ⟨0, _⟩ => show win1_6.index t (0 : Fin 2) * 2000 + 1 * p.val = t.val * 2000 + p.val; omega
    | ⟨1, _⟩ => show win1_6.index t (1 : Fin 2) * 128 + 1 * q.val = q.val; omega
  show layerK true (iblk1 (F := Ideal) V c 0 t : Mat 2000 128) (iblk1 (F := Ideal) V c 1 t : Mat 2000 1)
      (iblk1 (F := Ideal) V c 2 t : Mat 2000 128) (V c main_v15) (V c main_v16) (V c main_v44) (ix2 p q)
    = layer1 V c (((cfg1.win 6).blk t).view.emb (ix2 p q : S2000x128.Idx))
  rw [e]
  exact layerK_rows true (row1 t) (V c main_v43) (V c main_v12) (V c main_v32) _ _ _ _ _ _
    (aggBlock1 V c t) (cinvBlock1 V c t) (featBlock1 V c t) p q

/-- Row i of the output is in point t's block iff it is among rows 2000·t …, and the column is in range. -/
theorem mem_block1 (t : Fin cfg1.N) (i : S50000x128.Idx) :
    i ∈ ((cfg1.win 6).blk t).view.set ↔
      ∀ a : Fin 2, win1_6.index t a * S2000x128.size a ≤ (i a).val ∧ (i a).val < win1_6.index t a * S2000x128.size a + S2000x128.size a := by
  show i ∈ ((View.whole main_v45).slice (win1_6.rect t)).set ↔ _
  rw [View.set_slice_whole, Rect.mem_set_unit]
  exact Iff.rfl

/-- Every row of the output is in the block of the point (row / 2000). -/
theorem cover1 (i : S50000x128.Idx) :
    ∃ t : Fin cfg1.N, (cfg1.win 6).flush t = true ∧ i ∈ ((cfg1.win 6).blk t).view.set := by
  have hN : cfg1.N = 25 := N_1
  have hi0 : (i 0).val < 50000 := (i 0).isLt
  have hi1 : (i 1).val < 128 := (i 1).isLt
  let t : Fin cfg1.N := ⟨(i 0).val / 2000, by rw [hN]; omega⟩
  have ht : t.val = (i 0).val / 2000 := rfl
  obtain ⟨-, -, -, -, -, -, -, -, -, -, -, -, e0, e1⟩ := index1 t
  refine ⟨t, flush1_6 t, ?_⟩
  rw [mem_block1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- THE ARRAY after the second region: the layer of the arrays the region found. -/
theorem final1
    (hpay : ∀ (x0 : Vec Ideal S2000x128 .f32) (x1 : Vec Ideal S2000x1 .f32) (x2 : Vec Ideal S2000x128 .bf16)
      (x3 x4 : Vec Ideal S128x128 .f32) (x5 : Vec Ideal S1x128 .f32),
      k1_pay1 (F := Ideal) x0 x1 x2 x3 x4 x5 = layerK true x0 x1 x2 x3 x4 x5)
    (V : (c : Dev nD) → (b : Ref sig .tc) → Buf (Elt Ideal) ((c : Thread nD τ).loc b)) (c : Dev nD) :
    (dat1 (F := Ideal) V c).arrAt 6 cfg1.N
      = layerK true (V c main_v43) (V c main_v12) (V c main_v32) (V c main_v15) (V c main_v16) (V c main_v44) :=
  (dat1 (F := Ideal) V c).arrAt_eq_of_cover 6 (layer1 V c) (fun t _ => flushed1 V hpay c t) cover1

end Cert.KernelIdeal.Final

end
-- ==== Proof.Final2.lean ====
/-
  From blocks to the array, third layer.

  The third layer runs over 25 grid points; point t handles rows 2000·t … 2000·t + 1999 of the 50000 nodes.  Each of the
  three row-indexed operands (neighbour sums, reciprocal column, node features) is staged block by block with the same
  row offset; the two weight matrices and the bias are staged whole.  Given that the body's arithmetic on one block is
  the layer of that block (the hypothesis of the closing theorem), what point t writes back is rows 2000·t … of the
  layer of the whole arrays, because a row of the layer depends only on the same row of the row-indexed operands.  The
  25 blocks tile the 50000 rows, so the array ends holding the layer of the whole arrays.
  The node features of this layer are the previous layer's result in a narrower format; on the extended reals a format
  holds the same numbers, so nothing changes.  This last layer does not clamp negative entries.
-/
import proofs.«121773_j33517924778074_2_alg».proof.Proof.Gen.KernelIdeal.Frame
import proofs.«121773_j33517924778074_2_alg».proof.Proof.Spec
import Idealize.ShloMosaic.Lib.Pipeline.Value
import Idealize.ShloMosaic.Lib.ValueIdx

set_option maxRecDepth 16384

noncomputable section

namespace Cert.KernelIdeal.Final

open Cert.KernelIdeal Cert.KernelIdeal.Gen Cert.SageSpec Idealize.ShloMosaic Idealize.ShloMosaic.TcCoe
open Idealize.ShloMosaic.ValueIdx Idealize.SL.Sem
open Idealize.ShloMosaic.Pipeline (Dat)

/-- The zero offsets, however spelt. -/
theorem zeroOff2 : (![0, 0] : Fin 2 → Nat) = fun _ => 0 := funext fun a => by fin_cases a <;> rfl

/-- The printed index maps of the third layer, decided over the 25 points: the row-indexed windows (0, 1, 2 and the
    output 6) are at block row t and block column 0; the whole-array windows (3, 4, 5) stay at block (0, 0). -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A point's number is below 25. -/
theorem point2_lt (t : Fin cfg2.N) : t.val < 25 := by
  have h : cfg2.N = 25 := N_2
  have := t.isLt
  omega

/-- Row p of point t's block is row 2000·t + p of the array. -/
def row2 (t : Fin cfg2.N) (p : Fin 2000) : Fin 50000 :=
  ⟨t.val * 2000 + p.val, by have := point2_lt t; have := p.isLt; omega⟩

variable (V : (c : Dev nD) → (b : Ref sig .tc) → Buf (Elt Ideal) ((c : Thread nD τ).loc b))

/-- The neighbour sums' block at point t is rows 2000·t … of the array. -/
theorem aggBlock2 (c : Dev nD) (t : Fin cfg2.N) (p : Fin 2000) (k : Fin 128) :
    (iblk2 (F := Ideal) V c 0 t : Mat 2000 128) (ix2 p k) = (V c main_v56 : Mat 50000 128) (ix2 (row2 t p) k) := by
  obtain ⟨e0, e1, -⟩ := index2 t
  have e : ((cfg2.win 0).blk t).view.emb (ix2 p k : S2000x128.Idx) = (ix2 (row2 t p) k : S50000x128.Idx) := by
    funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  show (V c main_v56 : Mat 50000 128) (((cfg2.win 0).blk t).view.emb (ix2 p k : S2000x128.Idx)) = _
  rw [e]

/-- The reciprocal column's block at point t is rows 2000·t … of the column. -/
theorem cinvBlock2 (c : Dev nD) (t : Fin cfg2.N) (p : Fin 2000) :
    (iblk2 (F := Ideal) V c 1 t : Mat 2000 1) (ix2 p 0) = (V c main_v12 : Mat 50000 1) (ix2 (row2 t p) 0) := by
  obtain ⟨-, -, e0, e1, -⟩ := index2 t
  have e : ((cfg2.win 1).blk t).view.emb (ix2 p 0 : S2000x1.Idx) = (ix2 (row2 t p) 0 : S50000x1.Idx) := by
    funext a; apply Fin.ext
    match a with
    | ⟨0, _⟩ => show win2_1.index t (0 : Fin 2) * 2000 + 1 * p.val = t.val * 2000 + p.val; omega
    | ⟨1, _⟩ => show win2_1.index t (1 : Fin 2) * 1 + 1 * 0 = 0; omega
  show (V c main_v12 : Mat 50000 1) (((cfg2.win 1).blk t).view.emb (ix2 p 0 : S2000x1.Idx)) = _
  rw [e]

/-- The node features' block at point t is rows 2000·t … of the array. -/
theorem featBlock2 (c : Dev nD) (t : Fin cfg2.N) (p : Fin 2000) (k : Fin 128) :
    (iblk2 (F := Ideal) V c 2 t : Mat 2000 128) (ix2 p k) = (V c main_v45 : Mat 50000 128) (ix2 (row2 t p) k) := by
  obtain ⟨-, -, -, -, e0, e1, -⟩ := index2 t
  have e : ((cfg2.win 2).blk t).view.emb (ix2 p k : S2000x128.Idx) = (ix2 (row2 t p) k : S50000x128.Idx) := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * k.val = k.val; omega
  show (V c main_v45 : Mat 50000 128) (((cfg2.win 2).blk t).view.emb (ix2 p k : S2000x128.Idx)) = _
  rw [e]

/-- The first weight matrix is staged whole. -/
theorem wlBlock2 (c : Dev nD) (t : Fin cfg2.N) : (iblk2 (F := Ideal) V c 3 t : Mat 128 128) = V c main_v17 := by
  obtain ⟨-, -, -, -, -, -, e0, e1, -⟩ := index2 t
  funext j
  have e : ((cfg2.win 3).blk t).view.emb (j : S128x128.Idx) = (j : S128x128.Idx) := by
    funext a; apply Fin.ext
    match a with
    | ⟨0, _⟩ => show win2_3.index t (0 : Fin 2) * 128 + 1 * (j 0).val = (j 0).val; omega
    | ⟨1, _⟩ => show win2_3.index t (1 : Fin 2) * 128 + 1 * (j 1).val = (j 1).val; omega
  show (V c main_v17 : Mat 128 128) (((cfg2.win 3).blk t).view.emb (j : S128x128.Idx)) = _
  rw [e]

/-- The second weight matrix is staged whole. -/
theorem wrBlock2 (c : Dev nD) (t : Fin cfg2.N) : (iblk2 (F := Ideal) V c 4 t : Mat 128 128) = V c main_v18 := by
  obtain ⟨-, -, -, -, -, -, -, -, e0, e1, -⟩ := index2 t
  funext j
  have e : ((cfg2.win 4).blk t).view.emb (j : S128x128.Idx) = (j : S128x128.Idx) := by
    funext a; apply Fin.ext
    match a with
    | ⟨0, _⟩ => show win2_4.index t (0 : Fin 2) * 128 + 1 * (j 0).val = (j 0).val; omega
    | ⟨1, _⟩ => show win2_4.index t (1 : Fin 2) * 128 + 1 * (j 1).val = (j 1).val; omega
  show (V c main_v18 : Mat 128 128) (((cfg2.win 4).blk t).view.emb (j : S128x128.Idx)) = _
  rw [e]

/-- The bias row is staged whole. -/
theorem biasBlock2 (c : Dev nD) (t : Fin cfg2.N) : (iblk2 (F := Ideal) V c 5 t : Mat 1 128) = V c main_v57 := by
  obtain ⟨-, -, -, -, -, -, -, -, -, -, e0, e1, -⟩ := index2 t
  funext j
  have e : ((cfg2.win 5).blk t).view.emb (j : S1x128.Idx) = (j : S1x128.Idx) := by
    funext a; apply Fin.ext
    match a with
    | ⟨0, _⟩ => show win2_5.index t (0 : Fin 2) * 1 + 1 * (j 0).val = (j 0).val; omega
    | ⟨1, _⟩ => show win2_5.index t (1 : Fin 2) * 128 + 1 * (j 1).val = (j 1).val; omega
  show (V c main_v57 : Mat 1 128) (((cfg2.win 5).blk t).view.emb (j : S1x128.Idx)) = _
  rw [e]

/-- The layer of the whole arrays as the third region finds them. -/
abbrev layer2 (c : Dev nD) : Mat 50000 128 :=
  layerK false (V c main_v56) (V c main_v12) (V c main_v45) (V c main_v17) (V c main_v18) (V c main_v57)

/-- What point t writes back is rows 2000·t … of the layer of the whole arrays. -/
theorem flushed2
    (hpay : ∀ (x0 : Vec Ideal S2000x128 .f32) (x1 : Vec Ideal S2000x1 .f32) (x2 : Vec Ideal S2000x128 .bf16)
      (x3 x4 : Vec Ideal S128x128 .f32) (x5 : Vec Ideal S1x128 .f32),
      k2_pay1 (F := Ideal) x0 x1 x2 x3 x4 x5 = layerK false x0 x1 x2 x3 x4 x5)
    (c : Dev nD) (t : Fin cfg2.N) :
    (dat2 (F := Ideal) V c).flushed 6 t = ((cfg2.win 6).blk t).view.read (Elt Ideal) (layer2 V c) := by
  show (cfg2.win 6).cut (grid2.coords t) ((dat2 V c).after 6 t) = _
  rw [after2_6]
  unfold out2_6
  rw [View.canon_unit_zero zeroOff2]
  simp only [View.ld_unit_zero (S := S2000x128) zeroOff2, View.ld_unit_zero (S := S2000x1) zeroOff2,
    View.ld_unit_zero (S := S128x128) zeroOff2, View.ld_unit_zero (S := S1x128) zeroOff2]
  rw [hpay, wlBlock2, wrBlock2, biasBlock2]
  obtain ⟨-, -, -, -, -, -, -, -, -, -, -, -, e0, e1⟩ := index2 t
  funext j
  obtain ⟨p, q, rfl⟩ : ∃ (p : Fin 2000) (q : Fin 128), j = ix2 p q := ⟨j 0, j 1, eq_ix2 j⟩
  have e : ((cfg2.win 6).blk t).view.emb (ix2 p q : S2000x128.Idx) = (ix2 (row2 t p) q : S50000x128.Idx) := by
    funext a; apply Fin.ext
    match a with
    | ⟨0, _⟩ => show win2_6.index t (0 : Fin 2) * 2000 + 1 * p.val = t.val * 2000 + p.val; omega
    | ⟨1, _⟩ => show win2_6.index t (1 : Fin 2) * 128 + 1 * q.val = q.val; omega
  show layerK false (iblk2 (F := Ideal) V c 0 t : Mat 2000 128) (iblk2 (F := Ideal) V c 1 t : Mat 2000 1)
      (iblk2 (F := Ideal) V c 2 t : Mat 2000 128) (V c main_v17) (V c main_v18) (V c main_v57) (ix2 p q)
    = layer2 V c (((cfg2.win 6).blk t).view.emb (ix2 p q : S2000x128.Idx))
  rw [e]
  exact layerK_rows false (row2 t) (V c main_v56) (V c main_v12) (V c main_v45) _ _ _ _ _ _
    (aggBlock2 V c t) (cinvBlock2 V c t) (featBlock2 V c t) p q

/-- Row i of the output is in point t's block iff it is among rows 2000·t …, and the column is in range. -/
theorem mem_block2 (t : Fin cfg2.N) (i : S50000x128.Idx) :
    i ∈ ((cfg2.win 6).blk t).view.set ↔
      ∀ a : Fin 2, win2_6.index t a * S2000x128.size a ≤ (i a).val ∧ (i a).val < win2_6.index t a * S2000x128.size a + S2000x128.size a := by
  show i ∈ ((View.whole main_v58).slice (win2_6.rect t)).set ↔ _
  rw [View.set_slice_whole, Rect.mem_set_unit]
  exact Iff.rfl

/-- Every row of the output is in the block of the point (row / 2000). -/
theorem cover2 (i : S50000x128.Idx) :
    ∃ t : Fin cfg2.N, (cfg2.win 6).flush t = true ∧ i ∈ ((cfg2.win 6).blk t).view.set := by
  have hN : cfg2.N = 25 := N_2
  have hi0 : (i 0).val < 50000 := (i 0).isLt
  have hi1 : (i 1).val < 128 := (i 1).isLt
  let t : Fin cfg2.N := ⟨(i 0).val / 2000, by rw [hN]; omega⟩
  have ht : t.val = (i 0).val / 2000 := rfl
  obtain ⟨-, -, -, -, -, -, -, -, -, -, -, -, e0, e1⟩ := index2 t
  refine ⟨t, flush2_6 t, ?_⟩
  rw [mem_block2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- THE ARRAY after the third region: the layer of the arrays the region found. -/
theorem final2
    (hpay : ∀ (x0 : Vec Ideal S2000x128 .f32) (x1 : Vec Ideal S2000x1 .f32) (x2 : Vec Ideal S2000x128 .bf16)
      (x3 x4 : Vec Ideal S128x128 .f32) (x5 : Vec Ideal S1x128 .f32),
      k2_pay1 (F := Ideal) x0 x1 x2 x3 x4 x5 = layerK false x0 x1 x2 x3 x4 x5)
    (V : (c : Dev nD) → (b : Ref sig .tc) → Buf (Elt Ideal) ((c : Thread nD τ).loc b)) (c : Dev nD) :
    (dat2 (F := Ideal) V c).arrAt 6 cfg2.N
      = layerK false (V c main_v56) (V c main_v12) (V c main_v45) (V c main_v17) (V c main_v18) (V c main_v57) :=
  (dat2 (F := Ideal) V c).arrAt_eq_of_cover 6 (layer2 V c) (fun t _ => flushed2 V hpay c t) cover2

end Cert.KernelIdeal.Final

end
-- ==== Proof.KValue.lean ====
/-
  What the idealized kernel computes: three layers, each of the one before.

  Each launch leaves in its result buffer the layer function of the arrays it was entered with (the body's arithmetic
  block by block, the blocks tiling the array).  The arrays a launch is entered with are host-side terms of the
  argument arrays and of the previous launch's result: the neighbour sums of the current features, the column of
  reciprocal clamped counts, the current features, two transposed weight matrices, a bias row.  Substituting, the
  result buffer at the end holds the third layer of the second layer of the first layer of the input features.
-/
import proofs.«121773_j33517924778074_2_alg».proof.Proof.KRun
import proofs.«121773_j33517924778074_2_alg».proof.Proof.KHost
import proofs.«121773_j33517924778074_2_alg».proof.Proof.Final0
import proofs.«121773_j33517924778074_2_alg».proof.Proof.Final1
import proofs.«121773_j33517924778074_2_alg».proof.Proof.Final2
import proofs.«121773_j33517924778074_2_alg».proof.Proof.Spec

set_option maxRecDepth 16384

noncomputable section

namespace Cert.KernelIdeal.Layers

open Cert.KernelIdeal Cert.KernelIdeal.Gen Cert.KernelIdeal.HostSide Cert.SageSpec
open Idealize.ShloMosaic Idealize.ShloMosaic.TcCoe Idealize.SL.Sem

/-! ## The three layers as functions of the argument arrays -/

/-- The first layer: of the input features, the edge list, two weight matrices and a bias vector. -/
def K1 (x0 : (⟨S50000x64, .f32⟩ : BufTy).Contents (Elt Ideal)) (e : (⟨S2x800000, .i32⟩ : BufTy).Contents (Elt Ideal))
    (wl : (⟨S128x64, .f32⟩ : BufTy).Contents (Elt Ideal)) (b : (⟨S128, .f32⟩ : BufTy).Contents (Elt Ideal))
    (wr : (⟨S128x64, .f32⟩ : BufTy).Contents (Elt Ideal)) : Mat 50000 128 :=
  layerK true (agg64 (F := Ideal) x0 e) (cinv (F := Ideal) e) x0 (wT64 (F := Ideal) wl) (wT64 (F := Ideal) wr) (bRow (F := Ideal) b)

/-- A later layer: of the previous layer's result, the edge list, two weight matrices and a bias vector. -/
def Kn (relu : Bool) (h : Mat 50000 128) (e : (⟨S2x800000, .i32⟩ : BufTy).Contents (Elt Ideal))
    (wl : (⟨S128x128, .f32⟩ : BufTy).Contents (Elt Ideal)) (b : (⟨S128, .f32⟩ : BufTy).Contents (Elt Ideal))
    (wr : (⟨S128x128, .f32⟩ : BufTy).Contents (Elt Ideal)) : Mat 50000 128 :=
  layerK relu (agg128 (F := Ideal) h e) (cinv (F := Ideal) e) h (wT128 (F := Ideal) wl) (wT128 (F := Ideal) wr) (bRow (F := Ideal) b)

/-! ## The result buffers -/

section
variable (hp0 : ∀ (x0 : Vec Ideal S2000x64 .f32) (x1 : Vec Ideal S2000x1 .f32) (x2 : Vec Ideal S2000x64 .f32) (x3 x4 : Vec Ideal S64x128 .f32) (x5 : Vec Ideal S1x128 .f32),
      k0_pay1 (F := Ideal) x0 x1 x2 x3 x4 x5 = layerK true x0 x1 x2 x3 x4 x5)
  (hp1 : ∀ (x0 : Vec Ideal S2000x128 .f32) (x1 : Vec Ideal S2000x1 .f32) (x2 : Vec Ideal S2000x128 .bf16) (x3 x4 : Vec Ideal S128x128 .f32) (x5 : Vec Ideal S1x128 .f32),
      k1_pay1 (F := Ideal) x0 x1 x2 x3 x4 x5 = layerK true x0 x1 x2 x3 x4 x5)
  (hp2 : ∀ (x0 : Vec Ideal S2000x128 .f32) (x1 : Vec Ideal S2000x1 .f32) (x2 : Vec Ideal S2000x128 .bf16) (x3 x4 : Vec Ideal S128x128 .f32) (x5 : Vec Ideal S1x128 .f32),
      k2_pay1 (F := Ideal) x0 x1 x2 x3 x4 x5 = layerK false x0 x1 x2 x3 x4 x5)
variable (m : (ℓ : Loc nD τ sig) → Buf (Elt Ideal) ℓ) (ρ : Dev nD → PrngReg) (c : Dev nD)

include hp0 in
/-- The first launch leaves the first layer. -/
theorem out0 : W2 m ρ c (Proc.devRef .tc main_v32)
    = K1 (argAt m c main_arg0) (argAt m c main_arg1) (argAt m c main_arg2) (argAt m c main_arg3) (argAt m c main_arg4) := by
  refine (W2_out m ρ c).trans ((Cert.KernelIdeal.Final.final0 hp0 (V1 m ρ) c).trans ?_)
  show layerK true (W1 m ρ c (Proc.devRef .tc main_v30)) (W1 m ρ c (Proc.devRef .tc main_v12)) (W1 m ρ c (Proc.devRef .tc main_arg0))
    (W1 m ρ c (Proc.devRef .tc main_v13)) (W1 m ρ c (Proc.devRef .tc main_v14)) (W1 m ρ c (Proc.devRef .tc main_v31)) = _
  rw [W1_agg m ρ c, W1_cinv m ρ c, W1_x m ρ c, W1_wl0 m ρ c, W1_wr0 m ρ c, W1_b0 m ρ c]
  rfl

include hp1 in
/-- The second launch leaves the second layer of what the first left. -/
theorem out1 : W4 m ρ c (Proc.devRef .tc main_v45)
    = Kn true (W2 m ρ c (Proc.devRef .tc main_v32)) (argAt m c main_arg1) (argAt m c main_arg5) (argAt m c main_arg6) (argAt m c main_arg7) := by
  refine (W4_out m ρ c).trans ((Cert.KernelIdeal.Final.final1 hp1 (V3 m ρ) c).trans ?_)
  show layerK true (W3 m ρ c (Proc.devRef .tc main_v43)) (W3 m ρ c (Proc.devRef .tc main_v12)) (W3 m ρ c (Proc.devRef .tc main_v32))
    (W3 m ρ c (Proc.devRef .tc main_v15)) (W3 m ρ c (Proc.devRef .tc main_v16)) (W3 m ρ c (Proc.devRef .tc main_v44)) = _
  rw [W3_agg m ρ c, W3_cinv m ρ c, W3_h m ρ c, W3_wl1 m ρ c, W3_wr1 m ρ c, W3_b1 m ρ c]
  rfl

include hp2 in
/-- The third launch leaves the third layer of what the second left. -/
theorem out2 : W6 m ρ c (Proc.devRef .tc main_v58)
    = Kn false (W4 m ρ c (Proc.devRef .tc main_v45)) (argAt m c main_arg1) (argAt m c main_arg8) (argAt m c main_arg9) (argAt m c main_arg10) := by
  refine (W6_out m ρ c).trans ((Cert.KernelIdeal.Final.final2 hp2 (V5 m ρ) c).trans ?_)
  show layerK false (W5 m ρ c (Proc.devRef .tc main_v56)) (W5 m ρ c (Proc.devRef .tc main_v12)) (W5 m ρ c (Proc.devRef .tc main_v45))
    (W5 m ρ c (Proc.devRef .tc main_v17)) (W5 m ρ c (Proc.devRef .tc main_v18)) (W5 m ρ c (Proc.devRef .tc main_v57)) = _
  rw [W5_agg m ρ c, W5_cinv m ρ c, W5_h m ρ c, W5_wl2 m ρ c, W5_wr2 m ρ c, W5_b2 m ρ c]
  rfl

/-- The kernel's value: the three layers composed, of the argument arrays at launch. -/
def value : Mat 50000 128 :=
  Kn false (Kn true (K1 (argAt m c main_arg0) (argAt m c main_arg1) (argAt m c main_arg2) (argAt m c main_arg3) (argAt m c main_arg4))
      (argAt m c main_arg1) (argAt m c main_arg5) (argAt m c main_arg6) (argAt m c main_arg7))
    (argAt m c main_arg1) (argAt m c main_arg8) (argAt m c main_arg9) (argAt m c main_arg10)

include hp0 hp1 hp2 in
/-- The result buffer at the end holds the three layers composed. -/
theorem result_eq : W6 m ρ c (Proc.devRef .tc main_v58) = value m c := by
  rw [out2 hp2 m ρ c, out1 hp1 m ρ c, out0 hp0 m ρ c]
  rfl

include hp0 hp1 hp2 in
/-- THE RUN: every weakly fair execution of the idealized kernel terminates, nothing faulting, with its result at the
    three layers composed and its argument arrays as launched. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v58) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (Cert.KernelIdeal.defs (F := Ideal)) _ _).mono
    (fun r h c => ⟨(h c).1.trans (result_eq hp0 hp1 hp2 m ρ c), (h c).2⟩)
    (Cert.KernelIdeal.RunValue.run_result (F := Ideal) m ρ)

end

end Cert.KernelIdeal.Layers

end
-- ==== Proof.KSide.lean ====
/-
  Three facts about the host-side terms, at the extended reals, that join the two arrangements of a layer.

  The clamped neighbour count is a maximum with one, so it is at least one and in particular not zero.  The reciprocal
  column is the vector of quotients "one over the clamped count" laid as a column, so its entry in row `i` is that
  quotient.  A bias row is the bias vector laid as one row, so its entry in column `j` is the vector's entry `j`.
-/
import proofs.«121773_j33517924778074_2_alg».proof.Proof.KHost
import proofs.«121773_j33517924778074_2_alg».proof.Proof.Spec
import proofs.«121773_j33517924778074_2_alg».proof.Proof.LibKeepdims
import Idealize.ShloMosaic.Lib.ValueLayout
import Idealize.ShloMosaic.Lib.ValueIdx

noncomputable section

namespace Cert.KernelIdeal.HostSide

open Cert.KernelIdeal Cert.SageSpec Idealize.ShloMosaic Idealize.ShloMosaic.ValueIdx

variable (e : (⟨S2x800000, .i32⟩ : BufTy).Contents (Elt Ideal))

/-- The maximum of a vector with the constant one, at an entry. -/
theorem max_one_apply (s : (⟨S50000, .f32⟩ : BufTy).Contents (Elt Ideal)) (i : Fin 50000) :
    maximumf (F := Ideal) s (broadcastInDim S50000 ![] Facts₀.bcast_S_S50000 (constant S_ .f32 0x3F800000#32)) (ix1 i)
      = max (s (ix1 i)) oneW := rfl

/-- The quotient of the constant one by a vector, at an entry. -/
theorem one_div_apply (d : (⟨S50000, .f32⟩ : BufTy).Contents (Elt Ideal)) (i : Fin 50000) :
    Host.divf (F := Ideal) (broadcastInDim S50000 ![] Facts₀.bcast_S_S50000 (constant S_ .f32 0x3F800000#32)) d (ix1 i)
      = Ideal.div oneW (d (ix1 i)) := rfl

/-- The clamped count is at least one. -/
theorem one_le_den (i : Fin 50000) : oneW ≤ den (F := Ideal) e (ix1 i) := by
  unfold den
  rw [max_one_apply]
  exact le_max_right _ _

/-- The clamped count is not zero. -/
theorem den_ne_zero (i : Fin 50000) : den (F := Ideal) e (ix1 i) ≠ 0 := by
  have h := one_le_den e i
  rw [oneW_eq] at h
  exact ne_of_gt (lt_of_lt_of_le zero_lt_one h)

/-- Row `i` of the reciprocal column is one over the clamped count of node `i`. -/
theorem cinv_apply (i : Fin 50000) :
    cinv (F := Ideal) e (ix2 i 0) = Ideal.div oneW (den (F := Ideal) e (ix1 i)) := by
  unfold cinv
  refine (Idealize.ShloMosaic.Keepdims.shapeCast_a_a1_apply _ _ i 0).trans ?_
  exact one_div_apply (den (F := Ideal) e) i

/-- Column `j` of a bias row is entry `j` of the bias vector. -/
theorem bRow_apply (b : (⟨S128, .f32⟩ : BufTy).Contents (Elt Ideal)) (j : Fin 128) :
    bRow (F := Ideal) b (ix2 0 j) = b (ix1 j) := by
  unfold bRow
  exact shapeCast_a_1a_apply _ _ 0 j

end Cert.KernelIdeal.HostSide

end
-- ==== Proof.Terms.lean ====
/-
  The two programs prepare the same arrays on the host.

  Both programs slice the edge list into sources and targets, shift a negative source by the number of nodes, gather
  the rows of the current features at the sources and scatter-add them at the targets into a zero array; both count
  the neighbours of a node by scatter-adding ones at the targets and clamp the count below by one; both transpose
  the weight matrices.  One program rounds the features to a narrower format before the gather and widens the
  gathered rows again, which on the extended reals changes nothing.  So each of the first program's host-side terms
  and the corresponding stage of the second program are one array, by unfolding both.
-/
import proofs.«121773_j33517924778074_2_alg».proof.Proof.KHost
import proofs.«121773_j33517924778074_2_alg».proof.Proof.Gen.ReferenceIdeal.Read

set_option maxRecDepth 16384

noncomputable section

namespace Cert.Bridge

open Idealize.ShloMosaic
open Cert.KernelIdeal.HostSide

variable (x0 : (⟨Cert.ReferenceIdeal.S50000x64, .f32⟩ : BufTy).Contents (Elt Ideal))
  (x1 : (⟨Cert.ReferenceIdeal.S2x800000, .i32⟩ : BufTy).Contents (Elt Ideal))
  (x2 : (⟨Cert.ReferenceIdeal.S128x64, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 : (⟨Cert.ReferenceIdeal.S128x128, .f32⟩ : BufTy).Contents (Elt Ideal))
  (x6 : (⟨Cert.ReferenceIdeal.S128, .f32⟩ : BufTy).Contents (Elt Ideal))
  (x7 x8 : (⟨Cert.ReferenceIdeal.S128x128, .f32⟩ : BufTy).Contents (Elt Ideal))
  (x9 : (⟨Cert.ReferenceIdeal.S128, .f32⟩ : BufTy).Contents (Elt Ideal))
  (x10 : (⟨Cert.ReferenceIdeal.S128x128, .f32⟩ : BufTy).Contents (Elt Ideal))

/-- The neighbour sums of the input features. -/
theorem agg0_eq : agg64 (F := Ideal) x0 x1 = Cert.ReferenceIdeal.Read.val_main_v13 (F := Ideal) x0 x1 := rfl

/-- The clamped neighbour counts, as each layer of the second program recomputes them. -/
theorem den0_eq : den (F := Ideal) x1 = Cert.ReferenceIdeal.Read.val_main_v19 (F := Ideal) x1 := rfl
theorem den1_eq : den (F := Ideal) x1 = Cert.ReferenceIdeal.Read.val_main_v52 (F := Ideal) x1 := rfl
theorem den2_eq : den (F := Ideal) x1 = Cert.ReferenceIdeal.Read.val_main_v85 (F := Ideal) x1 := rfl

/-- The transposed weights. -/
theorem wl0_eq : wT64 (F := Ideal) x2 = Cert.ReferenceIdeal.Read.val_main_v23 (F := Ideal) x2 := rfl
theorem wr0_eq : wT64 (F := Ideal) x4 = Cert.ReferenceIdeal.Read.val_main_v28 (F := Ideal) x4 := rfl
theorem wl1_eq : wT128 (F := Ideal) x5 = Cert.ReferenceIdeal.Read.val_main_v56 (F := Ideal) x5 := rfl
theorem wr1_eq : wT128 (F := Ideal) x7 = Cert.ReferenceIdeal.Read.val_main_v61 (F := Ideal) x7 := rfl
theorem wl2_eq : wT128 (F := Ideal) x8 = Cert.ReferenceIdeal.Read.val_main_v89 (F := Ideal) x8 := rfl
theorem wr2_eq : wT128 (F := Ideal) x10 = Cert.ReferenceIdeal.Read.val_main_v94 (F := Ideal) x10 := rfl

/-- The neighbour sums of the first layer's result. -/
theorem agg1_eq : agg128 (F := Ideal) (Cert.ReferenceIdeal.Read.val_main_v36 (F := Ideal) x0 x1 x2 x3 x4) x1
    = Cert.ReferenceIdeal.Read.val_main_v46 (F := Ideal) x0 x1 x2 x3 x4 := rfl

/-- The neighbour sums of the second layer's result. -/
theorem agg2_eq : agg128 (F := Ideal) (Cert.ReferenceIdeal.Read.val_main_v69 (F := Ideal) x0 x1 x2 x3 x4 x5 x6 x7) x1
    = Cert.ReferenceIdeal.Read.val_main_v79 (F := Ideal) x0 x1 x2 x3 x4 x5 x6 x7 := rfl

end Cert.Bridge

end
-- ==== Proof.RefLayer0.lean ====
/-
  The reference's first mean-aggregation layer, read one entry at a time.

  For a node `i` and an output column `j`, the entry of the layer's result is obtained from: the mean (the neighbour sum
  divided by the clamped neighbour count, the count broadcast along the row), its product with the first weight matrix as a
  sum over the input width, the bias added to it, the product of the node's own features with the second weight matrix
  added last; then the row's Euclidean length (the square root of the sum of the squares of the row's 128 entries,
  accumulated from zero), clamped below by a small constant, divides the entry, and negative entries are clamped to zero.
  Every step reads its operands at indices computed from `(i, j)`; those index functions are identified with plain
  coordinate pairs, and what remains is the layer's defining expression.
-/
import proofs.«121773_j33517924778074_2_alg».proof.Proof.Gen.ReferenceIdeal.Read
import proofs.«121773_j33517924778074_2_alg».proof.Proof.Spec

noncomputable section

open scoped BigOperators

namespace Cert.ReferenceIdeal.Layers

open Cert.ReferenceIdeal Cert.ReferenceIdeal.Read Cert.SageSpec Idealize.ShloMosaic Idealize.ShloMosaic.ValueIdx

variable (x0 : (⟨S50000x64, .f32⟩ : BufTy).Contents (Elt Ideal))
  (x1 : (⟨S2x800000, .i32⟩ : BufTy).Contents (Elt Ideal))
  (x2 : (⟨S128x64, .f32⟩ : BufTy).Contents (Elt Ideal))
  (x3 : (⟨S128, .f32⟩ : BufTy).Contents (Elt Ideal))
  (x4 : (⟨S128x64, .f32⟩ : BufTy).Contents (Elt Ideal))

/-- The mean at `(i, k)`: the neighbour sum divided by the clamped count of node `i`. -/
theorem mean0_at (i : Fin 50000) (k : Fin 64) :
    val_main_v22 (F := Ideal) x0 x1 (ix2 i k)
      = Ideal.div (val_main_v13 (F := Ideal) x0 x1 (ix2 i k)) (val_main_v19 (F := Ideal) x1 (ix1 i)) := by
  have e : idx_main_v20 (idx_main_v21 (ix2 i k)) = ix1 i := funext fun a => match a with | ⟨0, _⟩ => rfl
  rw [val_main_v22_apply, val_main_v21_apply, val_main_v20_apply, e, Ideal.hostDivf_def]

/-- The row before normalisation at `(i, j)`. -/
theorem lin0_at (i : Fin 50000) (j : Fin 128) :
    val_main_v30 (F := Ideal) x0 x1 x2 x3 x4 (ix2 i j)
      = linR (val_main_v13 (F := Ideal) x0 x1) (val_main_v19 (F := Ideal) x1) (x0) (val_main_v23 (F := Ideal) x2)
          (val_main_v28 (F := Ideal) x4) x3 i j := by
  have eb : idx_main_v25 (idx_main_v26 (ix2 i j)) = ix1 j := funext fun a => match a with | ⟨0, _⟩ => rfl
  have el : ∀ k : Fin 64, lidx_main_v24 (ix2 i j) k = ix2 i k := fun k =>
    funext fun a => match a with | ⟨0, _⟩ => rfl | ⟨1, _⟩ => rfl
  have er : ∀ k : Fin 64, ridx_main_v24 (ix2 i j) k = ix2 k j := fun k =>
    funext fun a => match a with | ⟨0, _⟩ => rfl | ⟨1, _⟩ => rfl
  have el' : ∀ k : Fin 64, lidx_main_v29 (ix2 i j) k = ix2 i k := fun k =>
    funext fun a => match a with | ⟨0, _⟩ => rfl | ⟨1, _⟩ => rfl
  have er' : ∀ k : Fin 64, ridx_main_v29 (ix2 i j) k = ix2 k j := fun k =>
    funext fun a => match a with | ⟨0, _⟩ => rfl | ⟨1, _⟩ => rfl
  unfold linR
  rw [val_main_v30_apply, val_main_v27_apply, val_main_v24_apply, val_main_v29_apply, val_main_v26_apply,
    val_main_v25_apply, eb, Ideal.addf_def, Ideal.addf_def]
  refine congrArg₂ (· + ·) (congrArg (· + x3 (ix1 j)) (Finset.sum_congr rfl fun k _ => ?_))
    (Finset.sum_congr rfl fun k _ => ?_)
  · rw [el k, er k, mean0_at]
  · rw [el' k, er' k]

/-- The sum of the squares of row `i` before normalisation. -/
theorem sq0_at (i : Fin 50000) :
    val_main_call0_v1 (F := Ideal) x0 x1 x2 x3 x4 (ix1 i)
      = ∑ q : Fin 128, val_main_v30 (F := Ideal) x0 x1 x2 x3 x4 (ix2 i q)
          * val_main_v30 (F := Ideal) x0 x1 x2 x3 x4 (ix2 i q) := by
  have e : ∀ q : Fin 128, idx_main_call0_v1 (ix1 i) q = ix2 i q := fun q =>
    funext fun a => match a with | ⟨0, _⟩ => rfl | ⟨1, _⟩ => rfl
  rw [val_main_call0_v1_apply, val_main_call0_cst_apply, Ideal.ofBits_def, Ideal.ofBits_zero_f32, zero_add]
  refine Finset.sum_congr rfl fun q _ => ?_
  rw [e q, val_main_call0_v0_apply, Ideal.mulf_def]

/-- The clamped Euclidean length of row `i`, as the divisor read at `(i, j)`. -/
theorem len0_at (i : Fin 50000) (j : Fin 128) :
    val_main_v34 (F := Ideal) x0 x1 x2 x3 x4 (ix2 i j)
      = max (Ideal.sqrt (∑ q : Fin 128, val_main_v30 (F := Ideal) x0 x1 x2 x3 x4 (ix2 i q)
          * val_main_v30 (F := Ideal) x0 x1 x2 x3 x4 (ix2 i q))) eps := by
  have e : idx_main_call0_v2 (idx_main_v34 (ix2 i j)) = ix1 i := funext fun a => match a with | ⟨0, _⟩ => rfl
  unfold eps
  rw [val_main_v34_apply, val_main_v33_apply, val_main_v31_apply, val_main_call0_v2_apply, e, sq0_at,
    val_main_v32_apply, val_main_cst_4_apply, Ideal.maximumf_def, Ideal.hostUnary_sqrt_def, Ideal.ofBits_def]

/-- The clamp of negative entries, switched on. -/
private theorem clampNeg_true (x : EReal) : clampNeg true x = max x zeroW := rfl

/-- The first layer of the reference is the layer function of its neighbour sums, clamped counts, features, transposed
    weights and bias, with the clamp of negative entries. -/
theorem ref_layer0 :
    val_main_v36 (F := Ideal) x0 x1 x2 x3 x4
      = layerR true (val_main_v13 (F := Ideal) x0 x1) (val_main_v19 (F := Ideal) x1) (x0) (val_main_v23 (F := Ideal) x2)
          (val_main_v28 (F := Ideal) x4) x3 := by
  funext idx
  obtain ⟨i, j, rfl⟩ : ∃ (i : Fin 50000) (j : Fin 128), idx = ix2 i j := ⟨idx 0, idx 1, eq_ix2 idx⟩
  rw [layerR_apply]
  unfold rowR unitRow
  rw [clampNeg_true]
  unfold zeroW
  rw [val_main_v36_apply, val_main_v35_apply, len0_at, val_main_call1_v0_apply, val_main_call1_cst_apply,
    Ideal.maximumf_def, Ideal.hostDivf_def, Ideal.ofBits_def]
  simp only [lin0_at]

end Cert.ReferenceIdeal.Layers

end
-- ==== Proof.RefLayer1.lean ====
/-
  The reference's second mean-aggregation layer, read one entry at a time.

  For a node `i` and an output column `j`, the entry of the layer's result is obtained from: the mean (the neighbour sum
  divided by the clamped neighbour count, the count broadcast along the row), its product with the first weight matrix as a
  sum over the input width, the bias added to it, the product of the node's own features with the second weight matrix
  added last; then the row's Euclidean length (the square root of the sum of the squares of the row's 128 entries,
  accumulated from zero), clamped below by a small constant, divides the entry, and negative entries are clamped to zero.
  Every step reads its operands at indices computed from `(i, j)`; those index functions are identified with plain
  coordinate pairs, and what remains is the layer's defining expression.
-/
import proofs.«121773_j33517924778074_2_alg».proof.Proof.Gen.ReferenceIdeal.Read
import proofs.«121773_j33517924778074_2_alg».proof.Proof.Spec

noncomputable section

open scoped BigOperators

namespace Cert.ReferenceIdeal.Layers

open Cert.ReferenceIdeal Cert.ReferenceIdeal.Read Cert.SageSpec Idealize.ShloMosaic Idealize.ShloMosaic.ValueIdx

variable (x0 : (⟨S50000x64, .f32⟩ : BufTy).Contents (Elt Ideal))
  (x1 : (⟨S2x800000, .i32⟩ : BufTy).Contents (Elt Ideal))
  (x2 : (⟨S128x64, .f32⟩ : BufTy).Contents (Elt Ideal))
  (x3 : (⟨S128, .f32⟩ : BufTy).Contents (Elt Ideal))
  (x4 : (⟨S128x64, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))

/-- The mean at `(i, k)`: the neighbour sum divided by the clamped count of node `i`. -/
theorem mean1_at (i : Fin 50000) (k : Fin 128) :
    val_main_v55 (F := Ideal) x0 x1 x2 x3 x4 (ix2 i k)
      = Ideal.div (val_main_v46 (F := Ideal) x0 x1 x2 x3 x4 (ix2 i k)) (val_main_v52 (F := Ideal) x1 (ix1 i)) := by
  have e : idx_main_v53 (idx_main_v54 (ix2 i k)) = ix1 i := funext fun a => match a with | ⟨0, _⟩ => rfl
  rw [val_main_v55_apply, val_main_v54_apply, val_main_v53_apply, e, Ideal.hostDivf_def]

/-- The row before normalisation at `(i, j)`. -/
theorem lin1_at (i : Fin 50000) (j : Fin 128) :
    val_main_v63 (F := Ideal) x0 x1 x2 x3 x4 x5 x6 x7 (ix2 i j)
      = linR (val_main_v46 (F := Ideal) x0 x1 x2 x3 x4) (val_main_v52 (F := Ideal) x1) (val_main_v36 (F := Ideal) x0 x1 x2 x3 x4) (val_main_v56 (F := Ideal) x5)
          (val_main_v61 (F := Ideal) x7) x6 i j := by
  have eb : idx_main_v58 (idx_main_v59 (ix2 i j)) = ix1 j := funext fun a => match a with | ⟨0, _⟩ => rfl
  have el : ∀ k : Fin 128, lidx_main_v57 (ix2 i j) k = ix2 i k := fun k =>
    funext fun a => match a with | ⟨0, _⟩ => rfl | ⟨1, _⟩ => rfl
  have er : ∀ k : Fin 128, ridx_main_v57 (ix2 i j) k = ix2 k j := fun k =>
    funext fun a => match a with | ⟨0, _⟩ => rfl | ⟨1, _⟩ => rfl
  have el' : ∀ k : Fin 128, lidx_main_v62 (ix2 i j) k = ix2 i k := fun k =>
    funext fun a => match a with | ⟨0, _⟩ => rfl | ⟨1, _⟩ => rfl
  have er' : ∀ k : Fin 128, ridx_main_v62 (ix2 i j) k = ix2 k j := fun k =>
    funext fun a => match a with | ⟨0, _⟩ => rfl | ⟨1, _⟩ => rfl
  unfold linR
  rw [val_main_v63_apply, val_main_v60_apply, val_main_v57_apply, val_main_v62_apply, val_main_v59_apply,
    val_main_v58_apply, eb, Ideal.addf_def, Ideal.addf_def]
  refine congrArg₂ (· + ·) (congrArg (· + x6 (ix1 j)) (Finset.sum_congr rfl fun k _ => ?_))
    (Finset.sum_congr rfl fun k _ => ?_)
  · rw [el k, er k, mean1_at]
  · rw [el' k, er' k]

/-- The sum of the squares of row `i` before normalisation. -/
theorem sq1_at (i : Fin 50000) :
    val_main_call2_v1 (F := Ideal) x0 x1 x2 x3 x4 x5 x6 x7 (ix1 i)
      = ∑ q : Fin 128, val_main_v63 (F := Ideal) x0 x1 x2 x3 x4 x5 x6 x7 (ix2 i q)
          * val_main_v63 (F := Ideal) x0 x1 x2 x3 x4 x5 x6 x7 (ix2 i q) := by
  have e : ∀ q : Fin 128, idx_main_call2_v1 (ix1 i) q = ix2 i q := fun q =>
    funext fun a => match a with | ⟨0, _⟩ => rfl | ⟨1, _⟩ => rfl
  rw [val_main_call2_v1_apply, val_main_call2_cst_apply, Ideal.ofBits_def, Ideal.ofBits_zero_f32, zero_add]
  refine Finset.sum_congr rfl fun q _ => ?_
  rw [e q, val_main_call2_v0_apply, Ideal.mulf_def]

/-- The clamped Euclidean length of row `i`, as the divisor read at `(i, j)`. -/
theorem len1_at (i : Fin 50000) (j : Fin 128) :
    val_main_v67 (F := Ideal) x0 x1 x2 x3 x4 x5 x6 x7 (ix2 i j)
      = max (Ideal.sqrt (∑ q : Fin 128, val_main_v63 (F := Ideal) x0 x1 x2 x3 x4 x5 x6 x7 (ix2 i q)
          * val_main_v63 (F := Ideal) x0 x1 x2 x3 x4 x5 x6 x7 (ix2 i q))) eps := by
  have e : idx_main_call2_v2 (idx_main_v67 (ix2 i j)) = ix1 i := funext fun a => match a with | ⟨0, _⟩ => rfl
  unfold eps
  rw [val_main_v67_apply, val_main_v66_apply, val_main_v64_apply, val_main_call2_v2_apply, e, sq1_at,
    val_main_v65_apply, val_main_cst_11_apply, Ideal.maximumf_def, Ideal.hostUnary_sqrt_def, Ideal.ofBits_def]

/-- The clamp of negative entries, switched on. -/
private theorem clampNeg_true (x : EReal) : clampNeg true x = max x zeroW := rfl

/-- The second layer of the reference is the layer function of its neighbour sums, clamped counts, features, transposed
    weights and bias, with the clamp of negative entries. -/
theorem ref_layer1 :
    val_main_v69 (F := Ideal) x0 x1 x2 x3 x4 x5 x6 x7
      = layerR true (val_main_v46 (F := Ideal) x0 x1 x2 x3 x4) (val_main_v52 (F := Ideal) x1) (val_main_v36 (F := Ideal) x0 x1 x2 x3 x4) (val_main_v56 (F := Ideal) x5)
          (val_main_v61 (F := Ideal) x7) x6 := by
  funext idx
  obtain ⟨i, j, rfl⟩ : ∃ (i : Fin 50000) (j : Fin 128), idx = ix2 i j := ⟨idx 0, idx 1, eq_ix2 idx⟩
  rw [layerR_apply]
  unfold rowR unitRow
  rw [clampNeg_true]
  unfold zeroW
  rw [val_main_v69_apply, val_main_v68_apply, len1_at, val_main_call3_v0_apply, val_main_call3_cst_apply,
    Ideal.maximumf_def, Ideal.hostDivf_def, Ideal.ofBits_def]
  simp only [lin1_at]

end Cert.ReferenceIdeal.Layers

end
-- ==== Proof.RefLayer2.lean ====
/-
  The reference's third mean-aggregation layer, read one entry at a time.

  For a node `i` and an output column `j`, the entry of the layer's result is obtained from: the mean (the neighbour sum
  divided by the clamped neighbour count, the count broadcast along the row), its product with the first weight matrix as a
  sum over the input width, the bias added to it, the product of the node's own features with the second weight matrix
  added last; then the row's Euclidean length (the square root of the sum of the squares of the row's 128 entries,
  accumulated from zero), clamped below by a small constant, divides the entry.
  Every step reads its operands at indices computed from `(i, j)`; those index functions are identified with plain
  coordinate pairs, and what remains is the layer's defining expression.
-/
import proofs.«121773_j33517924778074_2_alg».proof.Proof.Gen.ReferenceIdeal.Read
import proofs.«121773_j33517924778074_2_alg».proof.Proof.Spec

noncomputable section

open scoped BigOperators

namespace Cert.ReferenceIdeal.Layers

open Cert.ReferenceIdeal Cert.ReferenceIdeal.Read Cert.SageSpec Idealize.ShloMosaic Idealize.ShloMosaic.ValueIdx

variable (x0 : (⟨S50000x64, .f32⟩ : BufTy).Contents (Elt Ideal))
  (x1 : (⟨S2x800000, .i32⟩ : BufTy).Contents (Elt Ideal))
  (x2 : (⟨S128x64, .f32⟩ : BufTy).Contents (Elt Ideal))
  (x3 : (⟨S128, .f32⟩ : BufTy).Contents (Elt Ideal))
  (x4 : (⟨S128x64, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128x128, .f32⟩ : BufTy).Contents (Elt Ideal))
  (x9 : (⟨S128, .f32⟩ : BufTy).Contents (Elt Ideal))
  (x10 : (⟨S128x128, .f32⟩ : BufTy).Contents (Elt Ideal))

/-- The mean at `(i, k)`: the neighbour sum divided by the clamped count of node `i`. -/
theorem mean2_at (i : Fin 50000) (k : Fin 128) :
    val_main_v88 (F := Ideal) x0 x1 x2 x3 x4 x5 x6 x7 (ix2 i k)
      = Ideal.div (val_main_v79 (F := Ideal) x0 x1 x2 x3 x4 x5 x6 x7 (ix2 i k)) (val_main_v85 (F := Ideal) x1 (ix1 i)) := by
  have e : idx_main_v86 (idx_main_v87 (ix2 i k)) = ix1 i := funext fun a => match a with | ⟨0, _⟩ => rfl
  rw [val_main_v88_apply, val_main_v87_apply, val_main_v86_apply, e, Ideal.hostDivf_def]

/-- The row before normalisation at `(i, j)`. -/
theorem lin2_at (i : Fin 50000) (j : Fin 128) :
    val_main_v96 (F := Ideal) x0 x1 x2 x3 x4 x5 x6 x7 x8 x9 x10 (ix2 i j)
      = linR (val_main_v79 (F := Ideal) x0 x1 x2 x3 x4 x5 x6 x7) (val_main_v85 (F := Ideal) x1) (val_main_v69 (F := Ideal) x0 x1 x2 x3 x4 x5 x6 x7) (val_main_v89 (F := Ideal) x8)
          (val_main_v94 (F := Ideal) x10) x9 i j := by
  have eb : idx_main_v91 (idx_main_v92 (ix2 i j)) = ix1 j := funext fun a => match a with | ⟨0, _⟩ => rfl
  have el : ∀ k : Fin 128, lidx_main_v90 (ix2 i j) k = ix2 i k := fun k =>
    funext fun a => match a with | ⟨0, _⟩ => rfl | ⟨1, _⟩ => rfl
  have er : ∀ k : Fin 128, ridx_main_v90 (ix2 i j) k = ix2 k j := fun k =>
    funext fun a => match a with | ⟨0, _⟩ => rfl | ⟨1, _⟩ => rfl
  have el' : ∀ k : Fin 128, lidx_main_v95 (ix2 i j) k = ix2 i k := fun k =>
    funext fun a => match a with | ⟨0, _⟩ => rfl | ⟨1, _⟩ => rfl
  have er' : ∀ k : Fin 128, ridx_main_v95 (ix2 i j) k = ix2 k j := fun k =>
    funext fun a => match a with | ⟨0, _⟩ => rfl | ⟨1, _⟩ => rfl
  unfold linR
  rw [val_main_v96_apply, val_main_v93_apply, val_main_v90_apply, val_main_v95_apply, val_main_v92_apply,
    val_main_v91_apply, eb, Ideal.addf_def, Ideal.addf_def]
  refine congrArg₂ (· + ·) (congrArg (· + x9 (ix1 j)) (Finset.sum_congr rfl fun k _ => ?_))
    (Finset.sum_congr rfl fun k _ => ?_)
  · rw [el k, er k, mean2_at]
  · rw [el' k, er' k]

/-- The sum of the squares of row `i` before normalisation. -/
theorem sq2_at (i : Fin 50000) :
    val_main_call4_v1 (F := Ideal) x0 x1 x2 x3 x4 x5 x6 x7 x8 x9 x10 (ix1 i)
      = ∑ q : Fin 128, val_main_v96 (F := Ideal) x0 x1 x2 x3 x4 x5 x6 x7 x8 x9 x10 (ix2 i q)
          * val_main_v96 (F := Ideal) x0 x1 x2 x3 x4 x5 x6 x7 x8 x9 x10 (ix2 i q) := by
  have e : ∀ q : Fin 128, idx_main_call4_v1 (ix1 i) q = ix2 i q := fun q =>
    funext fun a => match a with | ⟨0, _⟩ => rfl | ⟨1, _⟩ => rfl
  rw [val_main_call4_v1_apply, val_main_call4_cst_apply, Ideal.ofBits_def, Ideal.ofBits_zero_f32, zero_add]
  refine Finset.sum_congr rfl fun q _ => ?_
  rw [e q, val_main_call4_v0_apply, Ideal.mulf_def]

/-- The clamped Euclidean length of row `i`, as the divisor read at `(i, j)`. -/
theorem len2_at (i : Fin 50000) (j : Fin 128) :
    val_main_v100 (F := Ideal) x0 x1 x2 x3 x4 x5 x6 x7 x8 x9 x10 (ix2 i j)
      = max (Ideal.sqrt (∑ q : Fin 128, val_main_v96 (F := Ideal) x0 x1 x2 x3 x4 x5 x6 x7 x8 x9 x10 (ix2 i q)
          * val_main_v96 (F := Ideal) x0 x1 x2 x3 x4 x5 x6 x7 x8 x9 x10 (ix2 i q))) eps := by
  have e : idx_main_call4_v2 (idx_main_v100 (ix2 i j)) = ix1 i := funext fun a => match a with | ⟨0, _⟩ => rfl
  unfold eps
  rw [val_main_v100_apply, val_main_v99_apply, val_main_v97_apply, val_main_call4_v2_apply, e, sq2_at,
    val_main_v98_apply, val_main_cst_18_apply, Ideal.maximumf_def, Ideal.hostUnary_sqrt_def, Ideal.ofBits_def]

/-- The clamp of negative entries, switched off. -/
private theorem clampNeg_false (x : EReal) : clampNeg false x = x := rfl

/-- The third layer of the reference is the layer function of its neighbour sums, clamped counts, features, transposed
    weights and bias, without the clamp of negative entries. -/
theorem ref_layer2 :
    val_main_v101 (F := Ideal) x0 x1 x2 x3 x4 x5 x6 x7 x8 x9 x10
      = layerR false (val_main_v79 (F := Ideal) x0 x1 x2 x3 x4 x5 x6 x7) (val_main_v85 (F := Ideal) x1) (val_main_v69 (F := Ideal) x0 x1 x2 x3 x4 x5 x6 x7) (val_main_v89 (F := Ideal) x8)
          (val_main_v94 (F := Ideal) x10) x9 := by
  funext idx
  obtain ⟨i, j, rfl⟩ : ∃ (i : Fin 50000) (j : Fin 128), idx = ix2 i j := ⟨idx 0, idx 1, eq_ix2 idx⟩
  rw [layerR_apply]
  unfold rowR unitRow
  rw [clampNeg_false]
  rw [val_main_v101_apply, len2_at, Ideal.hostDivf_def]
  simp only [lin2_at]

end Cert.ReferenceIdeal.Layers

end
-- ==== Proof.Bridge.lean ====
/-
  The two programs compute one function.

  Layer by layer: the first program's layer (reciprocal first, bias last) of the host-side terms is, by the law of the
  two arrangements, the second arrangement of the same terms; the host-side terms are the second program's stages; and
  the second program's layer is the second arrangement of its stages.  So each program's layer of the same features
  is the same array, and the three layers composed are the same array.
-/
import proofs.«121773_j33517924778074_2_alg».proof.Proof.KValue
import proofs.«121773_j33517924778074_2_alg».proof.Proof.KSide
import proofs.«121773_j33517924778074_2_alg».proof.Proof.Terms
import proofs.«121773_j33517924778074_2_alg».proof.Proof.RefLayer0
import proofs.«121773_j33517924778074_2_alg».proof.Proof.RefLayer1
import proofs.«121773_j33517924778074_2_alg».proof.Proof.RefLayer2
import proofs.«121773_j33517924778074_2_alg».proof.Proof.Spec

set_option maxRecDepth 16384

noncomputable section

namespace Cert.Bridge

open Idealize.ShloMosaic
open Cert.KernelIdeal.HostSide Cert.KernelIdeal.Layers Cert.SageSpec Cert.ReferenceIdeal.Layers

variable (x0 : (⟨Cert.ReferenceIdeal.S50000x64, .f32⟩ : BufTy).Contents (Elt Ideal))
  (x1 : (⟨Cert.ReferenceIdeal.S2x800000, .i32⟩ : BufTy).Contents (Elt Ideal))
  (x2 : (⟨Cert.ReferenceIdeal.S128x64, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 : (⟨Cert.ReferenceIdeal.S128x128, .f32⟩ : BufTy).Contents (Elt Ideal))
  (x6 : (⟨Cert.ReferenceIdeal.S128, .f32⟩ : BufTy).Contents (Elt Ideal))
  (x7 x8 : (⟨Cert.ReferenceIdeal.S128x128, .f32⟩ : BufTy).Contents (Elt Ideal))
  (x9 : (⟨Cert.ReferenceIdeal.S128, .f32⟩ : BufTy).Contents (Elt Ideal))
  (x10 : (⟨Cert.ReferenceIdeal.S128x128, .f32⟩ : BufTy).Contents (Elt Ideal))

/-- The first layer. -/
theorem layer0_eq : K1 x0 x1 x2 x3 x4 = Cert.ReferenceIdeal.Read.val_main_v36 (F := Ideal) x0 x1 x2 x3 x4 := by
  unfold K1
  refine (layerK_eq_layerR true _ _ (den (F := Ideal) x1) _ _ _ _ x3 (cinv_apply x1) (den_ne_zero x1) (bRow_apply x3)).trans ?_
  rw [agg0_eq x0 x1, den0_eq x1, wl0_eq x2, wr0_eq x4]
  exact (ref_layer0 x0 x1 x2 x3 x4).symm

/-- The second layer, of the first layer's result. -/
theorem layer1_eq : Kn true (Cert.ReferenceIdeal.Read.val_main_v36 (F := Ideal) x0 x1 x2 x3 x4) x1 x5 x6 x7
    = Cert.ReferenceIdeal.Read.val_main_v69 (F := Ideal) x0 x1 x2 x3 x4 x5 x6 x7 := by
  unfold Kn
  refine (layerK_eq_layerR true _ _ (den (F := Ideal) x1) _ _ _ _ x6 (cinv_apply x1) (den_ne_zero x1) (bRow_apply x6)).trans ?_
  rw [agg1_eq x0 x1 x2 x3 x4, den1_eq x1, wl1_eq x5, wr1_eq x7]
  exact (ref_layer1 x0 x1 x2 x3 x4 x5 x6 x7).symm

/-- The third layer, of the second layer's result. -/
theorem layer2_eq : Kn false (Cert.ReferenceIdeal.Read.val_main_v69 (F := Ideal) x0 x1 x2 x3 x4 x5 x6 x7) x1 x8 x9 x10
    = Cert.ReferenceIdeal.Read.val_main_v101 (F := Ideal) x0 x1 x2 x3 x4 x5 x6 x7 x8 x9 x10 := by
  unfold Kn
  refine (layerK_eq_layerR false _ _ (den (F := Ideal) x1) _ _ _ _ x9 (cinv_apply x1) (den_ne_zero x1) (bRow_apply x9)).trans ?_
  rw [agg2_eq x0 x1 x2 x3 x4 x5 x6 x7, den2_eq x1, wl2_eq x8, wr2_eq x10]
  exact (ref_layer2 x0 x1 x2 x3 x4 x5 x6 x7 x8 x9 x10).symm

/-- The three layers composed. -/
theorem value_eq : Kn false (Kn true (K1 x0 x1 x2 x3 x4) x1 x5 x6 x7) x1 x8 x9 x10
    = Cert.ReferenceIdeal.Read.val_main_v101 (F := Ideal) x0 x1 x2 x3 x4 x5 x6 x7 x8 x9 x10 := by
  rw [layer0_eq x0 x1 x2 x3 x4, layer1_eq x0 x1 x2 x3 x4 x5 x6 x7, layer2_eq x0 x1 x2 x3 x4 x5 x6 x7 x8 x9 x10]

end Cert.Bridge

end
-- ==== Proof.lean ====
/-
  A three-layer neighbourhood-mean graph network (50000 nodes with 64 input features, 800000 edges, 128 hidden
  features), as a kernel program and as a plain array program, read on the extended reals.

  A layer takes node features `h`.  For every node it sums the feature rows of the sources of its incoming edges
  (rows gathered at the edges' sources, scatter-added at their targets), divides by the number of incoming edges
  clamped below by one, and forms  y = mean · Wlᵀ + h · Wrᵀ + bias ; the row `y` is divided by its Euclidean length
  clamped below by a small constant; the first two layers clamp negative entries to zero.

  The kernel program computes the neighbour counts once and keeps the column of their reciprocals; before each layer
  it gathers and scatter-adds on the host, and runs the rest of the layer as a kernel over blocks of 2000 nodes: the
  mean as the neighbour sum times the reciprocal, two matrix products, the bias added last, the row length, the
  quotient, the clamp.  The array program divides by the clamped count, which it recomputes in every layer, and adds
  the bias between the two products.  On the extended reals a change of float format is the identity and sums are
  exact, so the two differ only by: multiplying by a reciprocal against dividing (the clamped count is at least one,
  hence not zero, and the two agree on every extended real), and the order of three summands (addition is commutative
  and associative).  No finiteness of the inputs is used.

  The kernel's run ends with its result at three nested layer functions of the argument arrays: each launch's blocks
  tile its result array, and the arrays each launch reads are host-side terms of the arguments and of the previous
  launch's result.  The array program's generated run ends with its result at its last stage, which is, layer by
  layer, the second arrangement of the same terms.  The ideal pass rewrote nothing, so the sanctioned-idealization
  claim is empty.
-/
import proofs.«121773_j33517924778074_2_alg».proof.Defs
import proofs.«121773_j33517924778074_2_alg».proof.Proof.Gen.Kernel
import proofs.«121773_j33517924778074_2_alg».proof.Proof.Gen.Kernel.Skeleton
import proofs.«121773_j33517924778074_2_alg».proof.Proof.Gen.Kernel.Launch
import proofs.«121773_j33517924778074_2_alg».proof.Proof.Gen.Kernel.Points
import proofs.«121773_j33517924778074_2_alg».proof.Proof.Gen.Kernel.Frame
import proofs.«121773_j33517924778074_2_alg».proof.Proof.Gen.KernelIdeal
import proofs.«121773_j33517924778074_2_alg».proof.Proof.Gen.KernelIdeal.Skeleton
import proofs.«121773_j33517924778074_2_alg».proof.Proof.Gen.KernelIdeal.Launch
import proofs.«121773_j33517924778074_2_alg».proof.Proof.Gen.KernelIdeal.Points
import proofs.«121773_j33517924778074_2_alg».proof.Proof.Gen.KernelIdeal.Frame
import proofs.«121773_j33517924778074_2_alg».proof.Proof.Gen.ReferenceIdeal
import proofs.«121773_j33517924778074_2_alg».proof.Proof.Gen.Pre_finite_inputs
import proofs.«121773_j33517924778074_2_alg».proof.Proof.Gen.ReferenceIdeal.Run
import proofs.«121773_j33517924778074_2_alg».proof.Proof.Gen.ReferenceIdeal.Read
import proofs.«121773_j33517924778074_2_alg».proof.Proof.KPay0
import proofs.«121773_j33517924778074_2_alg».proof.Proof.KPay1
import proofs.«121773_j33517924778074_2_alg».proof.Proof.KPay2
import proofs.«121773_j33517924778074_2_alg».proof.Proof.KValue
import proofs.«121773_j33517924778074_2_alg».proof.Proof.Bridge
import Idealize.ShloMosaic.Adequacy
import Idealize.ShloMosaic.Init

noncomputable section

namespace Cert.Proof

open Idealize.ShloMosaic Idealize.SL.Sem

/-- The kernel program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The array program runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the same result: the kernel's at its three
    nested layers of the arguments, the array program's at its last stage, which is the same function. -/
theorem algebraic : Cert.algebraic_KernelIdeal_ReferenceIdeal := by
  intro m ρ m' ρ' _ hagree
  refine ⟨fun c => Cert.KernelIdeal.Layers.value m c,
    Cert.KernelIdeal.Layers.run Cert.KernelIdeal.Pay.k0_pay1_eq Cert.KernelIdeal.Pay.k1_pay1_eq Cert.KernelIdeal.Pay.k2_pay1_eq m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v101_eq, h0, h1, h2, h3, h4, h5, h6, h7, h8, h9, h10]
  exact (Cert.Bridge.value_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
